-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S200x10000 : Shape := ⟨2, ![200, 10000]⟩
abbrev S400x128 : Shape := ⟨2, ![400, 128]⟩
abbrev S10000x256 : Shape := ⟨2, ![10000, 256]⟩
abbrev S1000x128 : Shape := ⟨2, ![1000, 128]⟩
abbrev S1000x256 : Shape := ⟨2, ![1000, 256]⟩
abbrev S200x256 : Shape := ⟨2, ![200, 256]⟩
abbrev S200x128 : Shape := ⟨2, ![200, 128]⟩
abbrev S200 : Shape := ⟨1, ![200]⟩
abbrev S200x1 : Shape := ⟨2, ![200, 1]⟩

abbrev nBuf : Space → Nat
  | .hbm => 7
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x256, .f32⟩
  | .hbm, ⟨5, _⟩ => ⟨S10000x128, .f32⟩
  | .hbm, ⟨6, _⟩ => ⟨S10000x128, .f32⟩
  | .local _ .vmem, ⟨0, _⟩ => ⟨S10000x128, .f32⟩
  | .local _ .vmem, ⟨1, _⟩ => ⟨S128x256, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x128, .f32⟩
  | .local _ .vmem, ⟨10, _⟩ => ⟨S10000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S128x128_S128x128_S128x256_d1 : Shape.Concatenates [S128x128, S128x128] S128x256 1
  inb_S10000x128_S1000x128_0_0 : ∀ a, (![0, 0] : Fin 2 → Nat) a + S1000x128.size a ≤ S10000x128.size a
  h_S1000x128 : 0 < S1000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x256_S1000x256_0_0 : ∀ a, (![0, 0] : Fin 2 → Nat) a + S1000x256.size a ≤ S10000x256.size a
  h_S1000x256 : 0 < S1000x256.numel
  shapeCasts_S1000x256_S1000x256 : S1000x256.ShapeCasts S1000x256
  inb_S10000x128_S1000x128_1000_0 : ∀ a, (![1000, 0] : Fin 2 → Nat) a + S1000x128.size a ≤ S10000x128.size a
  inb_S10000x256_S1000x256_1000_0 : ∀ a, (![1000, 0] : Fin 2 → Nat) a + S1000x256.size a ≤ S10000x256.size a
  inb_S10000x128_S1000x128_2000_0 : ∀ a, (![2000, 0] : Fin 2 → Nat) a + S1000x128.size a ≤ S10000x128.size a
  inb_S10000x256_S1000x256_2000_0 : ∀ a, (![2000, 0] : Fin 2 → Nat) a + S1000x256.size a ≤ S10000x256.size a
  inb_S10000x128_S1000x128_3000_0 : ∀ a, (![3000, 0] : Fin 2 → Nat) a + S1000x128.size a ≤ S10000x128.size a
  inb_S10000x256_S1000x256_3000_0 : ∀ a, (![3000, 0] : Fin 2 → Nat) a + S1000x256.size a ≤ S10000x256.size a
  inb_S10000x128_S1000x128_4000_0 : ∀ a, (![4000, 0] : Fin 2 → Nat) a + S1000x128.size a ≤ S10000x128.size a
  inb_S10000x256_S1000x256_4000_0 : ∀ a, (![4000, 0] : Fin 2 → Nat) a + S1000x256.size a ≤ S10000x256.size a
  inb_S10000x128_S1000x128_5000_0 : ∀ a, (![5000, 0] : Fin 2 → Nat) a + S1000x128.size a ≤ S10000x128.size a
  inb_S10000x256_S1000x256_5000_0 : ∀ a, (![5000, 0] : Fin 2 → Nat) a + S1000x256.size a ≤ S10000x256.size a
  inb_S10000x128_S1000x128_6000_0 : ∀ a, (![6000, 0] : Fin 2 → Nat) a + S1000x128.size a ≤ S10000x128.size a
  inb_S10000x256_S1000x256_6000_0 : ∀ a, (![6000, 0] : Fin 2 → Nat) a + S1000x256.size a ≤ S10000x256.size a
  inb_S10000x128_S1000x128_7000_0 : ∀ a, (![7000, 0] : Fin 2 → Nat) a + S1000x128.size a ≤ S10000x128.size a
  inb_S10000x256_S1000x256_7000_0 : ∀ a, (![7000, 0] : Fin 2 → Nat) a + S1000x256.size a ≤ S10000x256.size a
  inb_S10000x128_S1000x128_8000_0 : ∀ a, (![8000, 0] : Fin 2 → Nat) a + S1000x128.size a ≤ S10000x128.size a
  inb_S10000x256_S1000x256_8000_0 : ∀ a, (![8000, 0] : Fin 2 → Nat) a + S1000x256.size a ≤ S10000x256.size a
  inb_S10000x128_S1000x128_9000_0 : ∀ a, (![9000, 0] : Fin 2 → Nat) a + S1000x128.size a ≤ S10000x128.size a
  inb_S10000x256_S1000x256_9000_0 : ∀ a, (![9000, 0] : Fin 2 → Nat) a + S1000x256.size a ≤ S10000x256.size a
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  slices_S200x256_o0_0_S200x128 : S200x256.Slices ![0, 0] S200x128
  slices_S200x256_o0_128_S200x128 : S200x256.Slices ![0, 128] S200x128
  reduces_S200x128_S200 : S200x128.Reduces [1] S200
  shapeCasts_S200_S200x1 : S200.ShapeCasts S200x1
  broadcasts_S200x1_S200x128 : S200x1.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S1000x128_S128x256_S1000x256_1_0_0_1_n_n_wf : DotDims.WF S1000x128 S128x256 S1000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S400x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000, .f32⟩
  | .hbm, ⟨11, _⟩ => ⟨S10000x1, .f32⟩
  | .hbm, ⟨12, _⟩ => ⟨S10000x1, .f32⟩
  | .hbm, ⟨13, _⟩ => ⟨S_, .f32⟩
  | .hbm, ⟨14, _⟩ => ⟨S10000x1, .f32⟩
  | .hbm, ⟨15, _⟩ => ⟨S10000x1, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000, .f32⟩
  | .hbm, ⟨21, _⟩ => ⟨S10000x1, .f32⟩
  | .hbm, ⟨22, _⟩ => ⟨S10000x1, .f32⟩
  | .hbm, ⟨23, _⟩ => ⟨S_, .f32⟩
  | .hbm, ⟨24, _⟩ => ⟨S10000x1, .f32⟩
  | .hbm, ⟨25, _⟩ => ⟨S10000x1, .f32⟩
  | .hbm, ⟨26, _⟩ => ⟨S10000x128, .f32⟩
  | .hbm, ⟨27, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSharedArray.lean ====
/-
  Two input windows of one pallas_call that read the SAME array (the same operand handed in through two in_specs).

  The launch hands a pipeline the distinct buffers behind its windows' arrays, each whole at the full share. The
  pipeline's proof data wants one points-to per WINDOW. When exactly two windows w₁ ≠ w₂ sit on one buffer and the
  array map is otherwise injective, the buffer's full share is cut in its two halves: w₁ holds the left half, w₂ the
  right half, both at the same contents; every other window holds its own buffer at the full share. Both directions
  are proved (the split at region entry, the join at region exit, where both windows still hold the same contents
  because inputs are never written back).
-/
import Idealize.ShloMosaic.Lib.Pipeline.Launch
import Idealize.ShloMosaic.Lib.Pipeline.Regions

noncomputable section

namespace Idealize.ShloMosaic.Pipeline

open Idealize.SL
open Idealize.SL.BI (sProp bigSep bigSep_congr bigSep_erase bigSep_univ_split bigSep_image_of_injOn)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

/-- One buffer whole at share `q` at contents `V b`, as a function of the buffer: equal buffers give equal assertions. -/
theorem wholeAt_congr (c : Dev nD) (V : (b : Ref sig .tc) → Buf Val ((c.tc : Thread nD τ).loc b)) (q : PosShare TreeShare)
    {b₁ b₂ : Ref sig .tc} (h : b₁ = b₂) :
    ((((c.tc : Thread nD τ).loc b₁) ↦{q} V b₁ : sProp 𝕄)) = (((c.tc : Thread nD τ).loc b₂) ↦{q} V b₂ : sProp 𝕄) := by
  subst h; rfl

/-- The distinct buffers behind the windows' arrays, whole at the full share at contents `V`, are exactly the proof
    data's per-window arrays at the same contents, when windows `w₁` and `w₂` share a buffer (held in halves) and all
    the other windows have buffers of their own (held whole). -/
theorem arrBufs_arrays_of_pair {cfg : Cfg sig Λ₀} {c : Dev nD} (dat : Dat τ Val Ix Name U Lvl cfg c)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊣⊢ dat.arrays F := by
  classical
  have himg : (Finset.univ.image (arrRef cfg.spec) : Finset (Ref sig .tc)) = (Finset.univ.erase w₂).image (arrRef cfg.spec) := by
    ext b; constructor
    · intro hb
      obtain ⟨w, -, rfl⟩ := Finset.mem_image.mp hb
      by_cases hw : w = w₂
      · subst hw; exact Finset.mem_image.mpr ⟨w₁, Finset.mem_erase.mpr ⟨hne, Finset.mem_univ _⟩, heq⟩
      · exact Finset.mem_image.mpr ⟨w, Finset.mem_erase.mpr ⟨hw, Finset.mem_univ _⟩, rfl⟩
    · intro hb
      obtain ⟨w, -, rfl⟩ := Finset.mem_image.mp hb
      exact Finset.mem_image.mpr ⟨w, Finset.mem_univ _, rfl⟩
  have hw₁ : w₁ ∈ (Finset.univ.erase w₂ : Finset (Fin cfg.W)) := Finset.mem_erase.mpr ⟨hne, Finset.mem_univ _⟩
  -- the right-hand side, window by window over the buffers' references
  have hR : dat.arrays F = bigSep Finset.univ fun w =>
      ((((c.tc : Thread nD τ).loc (arrRef cfg.spec w)) ↦{dat.share w} V (arrRef cfg.spec w) : sProp 𝕄)) := by
    unfold Dat.arrays
    exact bigSep_congr fun w _ => by rw [(harr w).set_eq_univ, hF]
  rw [hR]; unfold arrBufs
  rw [himg, bigSep_image_of_injOn hinj, bigSep_erase hw₁, bigSep_univ_split w₂, bigSep_erase hw₁]
  have hrest : (bigSep ((Finset.univ.erase w₂).erase w₁) fun w =>
        ((((c.tc : Thread nD τ).loc (arrRef cfg.spec w)) ↦{fullShare} V (arrRef cfg.spec w) : sProp 𝕄)))
      = bigSep ((Finset.univ.erase w₂).erase w₁) fun w =>
        ((((c.tc : Thread nD τ).loc (arrRef cfg.spec w)) ↦{dat.share w} V (arrRef cfg.spec w) : sProp 𝕄)) :=
    bigSep_congr fun w hw => by
      rw [hq w (Finset.ne_of_mem_erase hw) (Finset.ne_of_mem_erase (Finset.mem_of_mem_erase hw))]
  rw [hrest, hq₁, hq₂, ← wholeAt_congr c V fullShare.right heq]
  have hsh : ((((c.tc : Thread nD τ).loc (arrRef cfg.spec w₁)) ↦{fullShare} V (arrRef cfg.spec w₁) : sProp 𝕄))
      ⊣⊢ iprop(((((c.tc : Thread nD τ).loc (arrRef cfg.spec w₁)) ↦{fullShare.left} V (arrRef cfg.spec w₁) : sProp 𝕄))
        ∗ (((c.tc : Thread nD τ).loc (arrRef cfg.spec w₁)) ↦{fullShare.right} V (arrRef cfg.spec w₁) : sProp 𝕄)) :=
    pointsTo_share (PosShare.mem_left_op_right fullShare)
  constructor
  · exact ((sep_mono (hsh.1.trans sep_comm.1) .rfl).trans sep_assoc.1)
  · exact (sep_assoc.2.trans (sep_mono (sep_comm.1.trans hsh.2) .rfl))

/-- ENTRY of a region whose windows `w₁`, `w₂` read one array: a core's unscoped buffers at contents `V` are the
    pipeline's arrays at the proof data's entry contents (read off `V`) and the unscoped rest. -/
theorem arrays_of_unscopedBufs_pair {cfg : Cfg sig Λ₀} {c : Dev nD} (dat : Dat τ Val Ix Name U Lvl cfg c)
    (hunscoped : ∀ w, (arrRef cfg.spec w).isScoped = false)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V : (b : Ref sig .tc) → Buf Val ((c.tc : Thread nD τ).loc b))
    (hA : ∀ w, dat.A w = V (arrRef cfg.spec w)) :
    (unscopedBufs c V : sProp 𝕄) ⊢ iprop(dat.arrays (dat.arrAt · 0) ∗ unscopedRest cfg.spec c V) := by
  rw [unscopedBufs_split₀ (fun _ : Unit => cfg) () hunscoped c V]
  exact sep_mono (arrBufs_arrays_of_pair dat harr w₁ w₂ hne heq hinj hq₁ hq₂ hq V _
    (fun w => by rw [show dat.arrAt w 0 = dat.A w from rfl, hA])).1 .rfl

/-- EXIT of such a region: the arrays at contents `F` and the unscoped rest at `V` are the core's unscoped buffers at
    any valuation `V'` that has the arrays at `F` and agrees with `V` off them. The two windows on one buffer hold the
    same contents (both are `V'` at that buffer), so their halves join. -/
theorem unscopedBufs_of_arrays_pair {cfg : Cfg sig Λ₀} {c : Dev nD} (dat : Dat τ Val Ix Name U Lvl cfg c)
    (hunscoped : ∀ w, (arrRef cfg.spec w).isScoped = false)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V V' : (b : Ref sig .tc) → Buf Val ((c.tc : Thread nD τ).loc b))
    (F : (w : Fin cfg.W) → Buf Val ((cfg.spec w).arr.view.loc (c.tc : Thread nD τ)))
    (hF : ∀ w, F w = V' (arrRef cfg.spec w))
    (hrest : ∀ b, b ∉ Finset.univ.image (arrRef cfg.spec) → V' b = V b) :
    iprop(dat.arrays F ∗ unscopedRest cfg.spec c V) ⊢ (unscopedBufs c V' : sProp 𝕄) := by
  rw [unscopedBufs_split₀ (fun _ : Unit => cfg) () hunscoped c V']
  refine sep_mono (arrBufs_arrays_of_pair dat harr w₁ w₂ hne heq hinj hq₁ hq₂ hq V' F hF).2 (Entails.of_eq ?_)
  unfold unscopedRest
  exact bigSep_congr fun b hb => by rw [hrest b (Finset.mem_sdiff.mp hb).2]

end Idealize.ShloMosaic.Pipeline

end
-- ==== Proof.LibSharedTrack.lean ====
/-
  The run of a one-region program whose pipeline has TWO INPUT WINDOWS ON ONE ARRAY and whose kernel CARRIES a scratch
  buffer of its own from one grid point to the next (no semaphore or transfer of its own).

  As in the untracked form, the launch hands the region the distinct buffers behind the windows' arrays, the shared
  buffer's full share cut in its two halves, one per window; the unscoped buffers no window stages bypass the region.
  The difference is the body's invariant: instead of the scoped rest at unknown contents at every point, any invariant
  the certificate states point by point, provided the scoped rest yields it before the first point (there the scratch
  holds anything) and it yields the scoped rest back after the last point (the scratch's contents forgotten).
-/
import Idealize.ShloMosaic.Lib.Pipeline.Frame
import proofs.«181799_g85478439125828_cont_9to1_m_54_13_alg».proof.Proof.LibSharedArray

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- Every weakly fair execution of @main — the region alone, or host operations then the region (`hmain`) — terminates,
    and every final state has each window's array at what the proof data compute after the last write-back and every
    other unscoped buffer at its contents at the region's entry, when windows `w₁ ≠ w₂` read one array held in halves,
    every other window has an array of its own, and the body's invariant `Φ` starts from the scoped rest (`hin`) and
    ends in it (`hout`). -/
theorem θ_run_frame_pair_rest_track
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (w₁ w₂ : Fin (cfgs p).W) (h12 : w₁ ≠ w₂) (heq : arrRef (cfgs p).spec w₁ = arrRef (cfgs p).spec w₂)
    (hinjOn : Set.InjOn (arrRef (cfgs p).spec) ((Finset.univ.erase w₂ : Finset (Fin (cfgs p).W)) : Set (Fin (cfgs p).W)))
    (hq₁ : ∀ c, (dats p c).share w₁ = fullShare.left) (hq₂ : ∀ c, (dats p c).share w₂ = fullShare.right)
    (hq : ∀ c w, w ≠ w₁ → w ≠ w₂ → (dats p c).share w = fullShare)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hA : ∀ c w, (dats p c).A w = V c (arrRef (cfgs p).spec w))
    (hin : ∀ c, scopedRest (cfgs p).spec c ⊢ (dats p c).Φ 0)
    (hout : ∀ c, (dats p c).Φ (Fin.last (cfgs p).N) ⊢ scopedRest (cfgs p).spec c) :
    θ_run (Pipeline.defs (fun q => Cfg.toPCfg (Val := Val) (cfgs q)) defs₀) (onTc main) (s₀ m g)
      (FramePost cfgs dats p V) :=
  θ_run_region_noSem_shared cfgs dats () hinj p hw emb₁ defs₀ 𝒱₀ m g main hbody hne harr hstage howed
    (initOf (cells cfgs hinj) (launchToks cfgs hinj)) (BI.Entails.refl _) V hmain
    (fun c => (arrBufs_arrays_of_pair (dats p c) harr w₁ w₂ h12 heq hinjOn (hq₁ c) (hq₂ c) (hq c) (V c) _
      (fun w => by rw [show (dats p c).arrAt w 0 = (dats p c).A w from rfl, hA])).1)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr; · iempintro
      iexact H)
    (hin := fun c => (show iprop(emp ∗ scopedRest (cfgs p).spec c) ⊢ scopedRest (cfgs p).spec c from by
      iintro ⟨-, H⟩; iexact H).trans (hin c))
    (hout := fun c => (hout c).trans (by
      iintro H; isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun _ h c => ⟨(h c).1, (h c).2⟩)

end Idealize.ShloMosaic.Pipeline

end
-- ==== Proof.KernelShared.lean ====
/-
  What the kernel's frame and value proofs share: the buffers as the pallas_call finds them, the blocks each
  window stages at a grid point, the one branch of the body, and how the frame claim follows from a run that ends
  with every windowed array at the proof data's contents and every other argument untouched.

  The call has six windows on a grid of 25 points: the features (whole, fetched once), the two weight matrices side
  by side (whole, fetched once), two windows of 200 rows each on the SAME adjacency matrix (rows 400 t .. 400 t + 199
  and 400 t + 200 .. 400 t + 399), and two outputs of 400 rows each. A scratch buffer holds the features times the
  concatenated weights; it is written at the first point only and read at every point.
-/
import proofs.«181799_g85478439125828_cont_9to1_m_54_13_alg».proof.Proof.Gen.Kernel.Launch
import proofs.«181799_g85478439125828_cont_9to1_m_54_13_alg».proof.Proof.Gen.Kernel.Skeleton
import proofs.«181799_g85478439125828_cont_9to1_m_54_13_alg».proof.Proof.Gen.Kernel.Points
import Idealize.ShloMosaic.Lib.Pipeline.FrameBody
import Idealize.ShloMosaic.Lib.Ring
import Idealize.ShloMosaic.Lib.Tactic
import proofs.«181799_g85478439125828_cont_9to1_m_54_13_alg».proof.Proof.LibSharedTrack

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core `c`'s buffers when the call is entered: after the concatenation of the two weight matrices. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the concatenation followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its own result only: each argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, Finset.mem_singleton]
    exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (unfetched, the block
    index has not moved), whenever the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run that ends with every windowed array at the proof data's final contents and every other argument as the
    call found it leaves the four arguments as launched: the features and the adjacency matrix are inputs of the
    call (never written back), the two weight matrices bypass it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch -/

/-- The condition under which the body fills the scratch: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The buffers the body is called with -/

/-- One staging buffer of each output window, through which its contents are stated. -/
abbrev VO0_4 : View sig .tc .vmem S400x128 .f32 := (Memref.whole cc0_stg4_0 : Memref sig .tc .vmem S400x128 .f32).view
abbrev VO0_5 : View sig .tc .vmem S400x128 .f32 := (Memref.whole cc0_stg5_0 : Memref sig .tc .vmem S400x128 .f32).view
/-- Each window's current staging buffer at point `t`, and that it is a whole buffer. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
/-- The scratch buffer, and the view through which its contents are stated. -/
abbrev scM0_0 : Memref sig .tc .vmem S10000x256 .f32 := Memref.whole cc0_scratch0
abbrev VS0_0 : View sig .tc .vmem S10000x256 .f32 := scM0_0.view

/-- What the call hands the body beside its windows: the scratch buffer, at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Frame

end
-- ==== Proof.KernelRunLater.lean ====
/-
  The body at a point after the first. The branch is not taken, so the scratch is only read: each half of the
  point's 400 output rows is the matching 200 adjacency rows times the scratch, split into its two column halves,
  each row divided by its floored Euclidean norm. The four input buffers and the scratch are handed back as found.
-/
import proofs.«181799_g85478439125828_cont_9to1_m_54_13_alg».proof.Proof.KernelShared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two output buffers at a later point, as pieces (last first), with the proof
    that from whole buffers — the inputs and the scratch at known contents, the outputs at anything — the body runs
    to the continuation holding the inputs and the scratch as they were and each output with its pieces written. -/
noncomputable def runLater (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i)
    (x0 : Vec F S10000x128 .f32) (x1 : Vec F S128x256 .f32) (x2 : Vec F S200x10000 .f32) (x3 : Vec F S200x10000 .f32) (xs0 : Vec F S10000x256 .f32) :
    Σ' (L4 : List (View.Piece (Elt F) S400x128 .f32)), { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ owns (c : Thread nD τ) arg7 fullShare xs0) -∗ K ⟨⟩))
          ⊢ wp frame (wpE (defs₀ (F := F)) Variants.none c none) E (cc0__gcn_body_split i arg1 harg1 arg2 harg2 arg3 harg3 arg4 harg4 arg5 harg5 arg6 harg6 arg7 harg7) K } := by
  refine ⟨?_, ?_, fun E K => ?run⟩
  case run =>
    simp only [cc0__gcn_body_split_eq_skeleton]; unfold cc0__gcn_body_split_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; isplitr; · ipureintro; exact harg7.read_unread _
    iexact HS0

end Cert.Kernel.Frame

end
-- ==== Proof.KernelRunFirst.lean ====
/-
  The body at the first point. The branch is taken: the scratch, handed over at unknown contents, is filled in ten
  chunks of 1000 rows, chunk j being rows 1000 j .. 1000 j + 999 of the features times the concatenated weights;
  then the body goes on as at every other point, reading the scratch it has just filled.
-/
import proofs.«181799_g85478439125828_cont_9to1_m_54_13_alg».proof.Proof.KernelShared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the two output buffers and in the scratch at the first point, as pieces (last
    first), with the proof that from whole buffers — the inputs at known contents, the outputs and the scratch at
    anything — the body runs to the continuation holding the inputs as they were and each output and the scratch
    with its pieces written. -/
noncomputable def runFirst (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i)
    (x0 : Vec F S10000x128 .f32) (x1 : Vec F S128x256 .f32) (x2 : Vec F S200x10000 .f32) (x3 : Vec F S200x10000 .f32) :
    Σ' (L4 : List (View.Piece (Elt F) S400x128 .f32)) (L5 : List (View.Piece (Elt F) S400x128 .f32)), { LS0 : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_body_split i arg1 harg1 arg2 harg2 arg3 harg3 arg4 harg4 arg5 harg5 arg6 harg6 arg7 harg7) K } := by
  refine ⟨?_, ?_, ?_, fun E K => ?run⟩
  case run =>
    simp only [cc0__gcn_body_split_eq_skeleton]; unfold cc0__gcn_body_split_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.Kernel.Frame

end
-- ==== Proof.KernelFrame.lean ====
/-
  The frame of the kernel: every fair execution of the program terminates without a fault, the two outputs end at
  what the body wrote back point by point, and the four arguments end as launched.

  After the first point the scratch holds the product of the features and the concatenated weights, and no later
  point writes it: the invariant carried from point to point is the scratch at exactly those contents. At every
  point the two outputs' buffers end at the pieces the body stored, two stores of 200 rows tiling the 400.
-/
import proofs.«181799_g85478439125828_cont_9to1_m_54_13_alg».proof.Proof.KernelRunLater
import proofs.«181799_g85478439125828_cont_9to1_m_54_13_alg».proof.Proof.KernelRunFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover their buffers -/

theorem coverLater_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) (y : S400x128.Idx) :
    ∃ pc ∈ (runLater c i arg1 harg1 arg2 harg2 arg3 harg3 arg4 harg4 arg5 harg5 arg6 harg6 arg7 harg7 hc0 x0 x1 x2 x3 xs0).1, y ∈ pc.1.set :=
  View.cover_of_tiledL (runLater c i arg1 harg1 arg2 harg2 arg3 harg3 arg4 harg4 arg5 harg5 arg6 harg6 arg7 harg7 hc0 x0 x1 x2 x3 xs0).1 S200x128.size (by sl_kernel_rfl) y
theorem coverLater_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) (y : S400x128.Idx) :
    ∃ pc ∈ (runLater c i arg1 harg1 arg2 harg2 arg3 harg3 arg4 harg4 arg5 harg5 arg6 harg6 arg7 harg7 hc0 x0 x1 x2 x3 xs0).2.1, y ∈ pc.1.set :=
  View.cover_of_tiledL (runLater c i arg1 harg1 arg2 harg2 arg3 harg3 arg4 harg4 arg5 harg5 arg6 harg6 arg7 harg7 hc0 x0 x1 x2 x3 xs0).2.1 S200x128.size (by sl_kernel_rfl) y
theorem coverFirst_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) (y : S400x128.Idx) :
    ∃ pc ∈ (runFirst c i arg1 harg1 arg2 harg2 arg3 harg3 arg4 harg4 arg5 harg5 arg6 harg6 arg7 harg7 hc0 x0 x1 x2 x3).1, y ∈ pc.1.set :=
  View.cover_of_tiledL (runFirst c i arg1 harg1 arg2 harg2 arg3 harg3 arg4 harg4 arg5 harg5 arg6 harg6 arg7 harg7 hc0 x0 x1 x2 x3).1 S200x128.size (by sl_kernel_rfl) y
theorem coverFirst_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) (y : S400x128.Idx) :
    ∃ pc ∈ (runFirst c i arg1 harg1 arg2 harg2 arg3 harg3 arg4 harg4 arg5 harg5 arg6 harg6 arg7 harg7 hc0 x0 x1 x2 x3).2.1, y ∈ pc.1.set :=
  View.cover_of_tiledL (runFirst c i arg1 harg1 arg2 harg2 arg3 harg3 arg4 harg4 arg5 harg5 arg6 harg6 arg7 harg7 hc0 x0 x1 x2 x3).2.1 S200x128.size (by sl_kernel_rfl) y
/-- The ten chunks of 1000 rows tile the scratch. -/
theorem coverFirst_S (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) (y : S10000x256.Idx) :
    ∃ pc ∈ (runFirst c i arg1 harg1 arg2 harg2 arg3 harg3 arg4 harg4 arg5 harg5 arg6 harg6 arg7 harg7 hc0 x0 x1 x2 x3).2.2.1, y ∈ pc.1.set :=
  View.cover_of_tiledL (runFirst c i arg1 harg1 arg2 harg2 arg3 harg3 arg4 harg4 arg5 harg5 arg6 harg6 arg7 harg7 hc0 x0 x1 x2 x3).2.2.1 S1000x256.size (by sl_kernel_rfl) y

/-! ## What each buffer holds after the body -/

def outLater_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) : Vec F S400x128 .f32 :=
  VO0_4.read (Elt F) (VO0_4.writes (Elt F) VO0_4.junk (runLater c i arg1 harg1 arg2 harg2 arg3 harg3 arg4 harg4 arg5 harg5 arg6 harg6 arg7 harg7 hc0 x0 x1 x2 x3 xs0).1)
def outLater_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) : Vec F S400x128 .f32 :=
  VO0_5.read (Elt F) (VO0_5.writes (Elt F) VO0_5.junk (runLater c i arg1 harg1 arg2 harg2 arg3 harg3 arg4 harg4 arg5 harg5 arg6 harg6 arg7 harg7 hc0 x0 x1 x2 x3 xs0).2.1)
def outFirst_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) : Vec F S400x128 .f32 :=
  VO0_4.read (Elt F) (VO0_4.writes (Elt F) VO0_4.junk (runFirst c i arg1 harg1 arg2 harg2 arg3 harg3 arg4 harg4 arg5 harg5 arg6 harg6 arg7 harg7 hc0 x0 x1 x2 x3).1)
def outFirst_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) : Vec F S400x128 .f32 :=
  VO0_5.read (Elt F) (VO0_5.writes (Elt F) VO0_5.junk (runFirst c i arg1 harg1 arg2 harg2 arg3 harg3 arg4 harg4 arg5 harg5 arg6 harg6 arg7 harg7 hc0 x0 x1 x2 x3).2.1)
def scratchFirst (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) : Vec F S10000x256 .f32 :=
  VS0_0.read (Elt F) (VS0_0.writes (Elt F) VS0_0.junk (runFirst c i arg1 harg1 arg2 harg2 arg3 harg3 arg4 harg4 arg5 harg5 arg6 harg6 arg7 harg7 hc0 x0 x1 x2 x3).2.2.1)

/-- The first grid point. -/
def pt0 : Fin cfg0.N := ⟨0, lt_of_lt_of_eq (Nat.zero_lt_succ 24) (show 25 = cfg0.N from N_0.symm)⟩

theorem pt0_val : (pt0 : Fin cfg0.N).val = 0 := rfl

/-- What the scratch holds from the end of the first point on. -/
def sc (c : Dev nD) : Vec F S10000x256 .f32 :=
  scratchFirst c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) scM0_0 (Memref.isWhole_whole _) ((hcond0_0 pt0).mpr (Nat.zero_mod _)) (iblk m c 0 pt0) (iblk m c 1 pt0) (iblk m c 2 pt0) (iblk m c 3 pt0)

/-- What the two outputs' buffers hold after the body at point `t`. -/
def outsAt (c : Dev nD) (t : Fin cfg0.N) : Vec F S400x128 .f32 × Vec F S400x128 .f32 :=
  if h : t.val % 25 = 0 then
    (outFirst_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t),
     outFirst_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t))
  else
    (outLater_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h ((hcond0_0 t).mp hh)) (iblk m c 0 t) (iblk m c 1 t) (iblk m c 2 t) (iblk m c 3 t) (sc m c),
     outLater_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h ((hcond0_0 t).mp hh)) (iblk m c 0 t) (iblk m c 1 t) (iblk m c 2 t) (iblk m c 3 t) (sc m c))

theorem outsAt_first (c : Dev nD) (t : Fin cfg0.N) (h : t.val % 25 = 0) :
    outsAt m c t = (outFirst_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t),
     outFirst_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t)) := dif_pos h
theorem outsAt_later (c : Dev nD) (t : Fin cfg0.N) (h : ¬t.val % 25 = 0) :
    outsAt m c t = (outLater_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h ((hcond0_0 t).mp hh)) (iblk m c 0 t) (iblk m c 1 t) (iblk m c 2 t) (iblk m c 3 t) (sc m c),
     outLater_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h ((hcond0_0 t).mp hh)) (iblk m c 0 t) (iblk m c 1 t) (iblk m c 2 t) (iblk m c 3 t) (sc m c)) := dif_neg h

/-- The invariant before position `n`: before the first point the scratch at anything; afterwards the scratch at
    the product it was filled with. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | _ + 1, _ => owns (c : Thread nD τ) scM0_0 fullShare (sc m c)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare (sc m c) := rfl
theorem PhiS_pos (c : Dev nD) (n : ℕ) (h : n ≤ cfg0.N) (hz : n ≠ 0) :
    PhiS m c n h = owns (c : Thread nD τ) scM0_0 fullShare (sc m c) := by
  cases n with
  | zero => exact absurd rfl hz
  | succ n => rfl

/-! ## The proof data -/

/-- The arrays as the call finds them; after the body each input's buffer at its block and each output's at the
    pieces stored; the two windows on the adjacency matrix hold it in halves; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t).1
    | ⟨5, _⟩ => (outsAt m c t).2
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t).1 := by dsimp only [dats]
theorem after0_5 (c : Dev nD) (t : Fin cfg0.N) : (dats m 0 c).after 5 t = (outsAt m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (outsAt m c t).1 := by
  unfold Dat.leavesExact; rw [liveAt0_4 t, after0_4]
theorem leaves0_5 (c : Dev nD) (t : Fin cfg0.N) : (dats m 0 c).leavesExact 5 t = owns (c : Thread nD τ) (ms0_5 t) fullShare (outsAt m c t).2 := by
  unfold Dat.leavesExact; rw [liveAt0_5 t, after0_5]

set_option maxHeartbeats 4800000 in
/-- The body at any point. At the first it is handed the scratch at anything and leaves it at the product; at
    a later point it is handed the scratch at the product and leaves it so. The inputs' buffers hold their blocks
    and are left in place; the outputs' buffers end at the pieces stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  have hN : t.val < 25 := lt_of_lt_of_eq t.isLt (show cfg0.N = 25 from N_0)
  by_cases h0 : t.val % 25 = 0
  · obtain rfl : t = pt0 := Fin.ext (by rw [pt0_val]; omega)
    rw [outsAt_first m c pt0 h0]
    unfold outFirst_4 outFirst_5 sc scratchFirst; (try dsimp only)
    rw [PhiS_castSucc m c pt0, PhiS_zero m c _ _ pt0_val, scopedRest0_owns]
    iintro ⟨⟨%ds, HS0⟩, Ho, ⟨%d0, H0⟩, ⟨%d1, H1⟩, ⟨%d2, H2⟩, ⟨%d3, H3⟩, ⟨%d4, H4⟩, ⟨%d5, H5⟩⟩
    iapply ((runFirst c (grid0.coords pt0) _ _ _ _ _ _ _ _ _ _ _ _ _ _ ((hcond0_0 pt0).mpr h0) (iblk m c 0 pt0) (iblk m c 1 pt0) (iblk m c 2 pt0) (iblk m c 3 pt0)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexists _; iexact HS0
    iintro ⟨H0, H1, H2, H3, ⟨%e4, H4⟩, ⟨%e5, H5⟩, ⟨%es0, HS0⟩⟩
    isplitl [HS0]
    · unfold owns; iexists _; isplitr
      swap; · iexact HS0
      ipureintro; exact View.read_writes_of_cover _ _ _ _ _ (coverFirst_S (F := F) c _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirst_4 (F := F) c _ _ _ _ _ _ _ _ _ _ _ _ _ _ _ _ _ _ _ _)
    unfold owns; iexists _; isplitr
    swap; · iexact H5
    ipureintro; exact View.read_writes_of_cover _ _ _ _ _ (coverFirst_5 (F := F) c _ _ _ _ _ _ _ _ _ _ _ _ _ _ _ _ _ _ _ _)
  · rw [outsAt_later m c t h0]
    unfold outLater_4 outLater_5; (try dsimp only)
    rw [PhiS_castSucc m c t, PhiS_pos m c _ _ (by omega)]
    iintro ⟨HS0, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hh => h0 ((hcond0_0 t).mp hh)) (iblk m c 0 t) (iblk m c 1 t) (iblk m c 2 t) (iblk m c 3 t) (sc m c)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverLater_4 (F := F) c _ _ _ _ _ _ _ _ _ _ _ _ _ _ _ _ _ _ _ _ _)
    unfold owns; iexists _; isplitr
    swap; · iexact H5
    ipureintro; exact View.read_writes_of_cover _ _ _ _ _ (coverLater_5 (F := F) c _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-- Before the first point the scratch is held at anything. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]

/-- After the last point what the scratch holds is forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest0_owns]
  iintro HS0
  iexists _; iexact HS0

/-! ## The run and the frame -/

/-- Apart from the second window on the adjacency matrix, the windows' arrays are distinct buffers. -/
theorem arr_injOn : Set.InjOn (Pipeline.arrRef spec0) ((Finset.univ.erase (3 : Fin 6) : Finset (Fin 6)) : Set (Fin 6)) := by
  have key : ∀ a b : Fin 6, a ≠ 3 → b ≠ 3 → Pipeline.arrRef spec0 a = Pipeline.arrRef spec0 b → a = b := by decide
  intro a ha b hb hab
  exact key a b (Finset.ne_of_mem_erase (Finset.mem_coe.mp ha)) (Finset.ne_of_mem_erase (Finset.mem_coe.mp hb)) hab

set_option backward.isDefEq.respectTransparency.types false in
/-- Every fair execution of the program terminates, with every windowed array at what the proof data compute and
    every other argument as the call found it. -/
theorem run_main : θ_run defs (onTc (τ := τ) (main (F := F))) (s₀ m ρ) (Pipeline.FramePost cfgs (dats m) 0 (V m)) :=
  Pipeline.θ_run_frame_pair_rest_track cfgs (dats m) (0 : Fin 1) defs₀ Variants.none cellOf_inj winFacts₀0 block_pos0 arr_whole0 stage_whole0
    m ρ main (hbody := fun c => (body_obligation m c).loose) (howed := fun _ _ => rfl)
    (w₁ := (2 : Fin 6)) (w₂ := (3 : Fin 6)) (h12 := by decide) (heq := by decide) (hinjOn := arr_injOn)
    (hq₁ := fun _ => rfl) (hq₂ := fun _ => rfl)
    (hq := fun c w h2 h3 => by
      fin_cases w
      · rfl
      · rfl
      · exact absurd rfl h2
      · exact absurd rfl h3
      · rfl
      · rfl)
    (V := V m) (hmain := hmain m Variants.none) (hA := A_eq m) (hin := hin m) (hout := hout m)

/-- The frame claim at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.KernelIdealShared.lean ====
/-
  What the kernel's frame and value proofs share: the buffers as the pallas_call finds them, the blocks each
  window stages at a grid point, the one branch of the body, and how the frame claim follows from a run that ends
  with every windowed array at the proof data's contents and every other argument untouched.

  The call has six windows on a grid of 25 points: the features (whole, fetched once), the two weight matrices side
  by side (whole, fetched once), two windows of 200 rows each on the SAME adjacency matrix (rows 400 t .. 400 t + 199
  and 400 t + 200 .. 400 t + 399), and two outputs of 400 rows each. A scratch buffer holds the features times the
  concatenated weights; it is written at the first point only and read at every point.
-/
import proofs.«181799_g85478439125828_cont_9to1_m_54_13_alg».proof.Proof.Gen.KernelIdeal.Launch
import proofs.«181799_g85478439125828_cont_9to1_m_54_13_alg».proof.Proof.Gen.KernelIdeal.Skeleton
import proofs.«181799_g85478439125828_cont_9to1_m_54_13_alg».proof.Proof.Gen.KernelIdeal.Points
import Idealize.ShloMosaic.Lib.Pipeline.FrameBody
import Idealize.ShloMosaic.Lib.Ring
import Idealize.ShloMosaic.Lib.Tactic
import proofs.«181799_g85478439125828_cont_9to1_m_54_13_alg».proof.Proof.LibSharedTrack

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core `c`'s buffers when the call is entered: after the concatenation of the two weight matrices. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the concatenation followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its own result only: each argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, Finset.mem_singleton]
    exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (unfetched, the block
    index has not moved), whenever the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run that ends with every windowed array at the proof data's final contents and every other argument as the
    call found it leaves the four arguments as launched: the features and the adjacency matrix are inputs of the
    call (never written back), the two weight matrices bypass it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch -/

/-- The condition under which the body fills the scratch: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The buffers the body is called with -/

/-- One staging buffer of each output window, through which its contents are stated. -/
abbrev VO0_4 : View sig .tc .vmem S400x128 .f32 := (Memref.whole cc0_stg4_0 : Memref sig .tc .vmem S400x128 .f32).view
abbrev VO0_5 : View sig .tc .vmem S400x128 .f32 := (Memref.whole cc0_stg5_0 : Memref sig .tc .vmem S400x128 .f32).view
/-- Each window's current staging buffer at point `t`, and that it is a whole buffer. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
/-- The scratch buffer, and the view through which its contents are stated. -/
abbrev scM0_0 : Memref sig .tc .vmem S10000x256 .f32 := Memref.whole cc0_scratch0
abbrev VS0_0 : View sig .tc .vmem S10000x256 .f32 := scM0_0.view

/-- What the call hands the body beside its windows: the scratch buffer, at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Frame

end
-- ==== Proof.KernelIdealRunLater.lean ====
/-
  The body at a point after the first. The branch is not taken, so the scratch is only read: each half of the
  point's 400 output rows is the matching 200 adjacency rows times the scratch, split into its two column halves,
  each row divided by its floored Euclidean norm. The four input buffers and the scratch are handed back as found.
-/
import proofs.«181799_g85478439125828_cont_9to1_m_54_13_alg».proof.Proof.KernelIdealShared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two output buffers at a later point, as pieces (last first), with the proof
    that from whole buffers — the inputs and the scratch at known contents, the outputs at anything — the body runs
    to the continuation holding the inputs and the scratch as they were and each output with its pieces written. -/
noncomputable def runLater (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i)
    (x0 : Vec F S10000x128 .f32) (x1 : Vec F S128x256 .f32) (x2 : Vec F S200x10000 .f32) (x3 : Vec F S200x10000 .f32) (xs0 : Vec F S10000x256 .f32) :
    Σ' (L4 : List (View.Piece (Elt F) S400x128 .f32)), { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ owns (c : Thread nD τ) arg7 fullShare xs0) -∗ K ⟨⟩))
          ⊢ wp frame (wpE (defs₀ (F := F)) Variants.none c none) E (cc0__gcn_body_split i arg1 harg1 arg2 harg2 arg3 harg3 arg4 harg4 arg5 harg5 arg6 harg6 arg7 harg7) K } := by
  refine ⟨?_, ?_, fun E K => ?run⟩
  case run =>
    simp only [cc0__gcn_body_split_eq_skeleton]; unfold cc0__gcn_body_split_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; isplitr; · ipureintro; exact harg7.read_unread _
    iexact HS0

end Cert.KernelIdeal.Frame

end
-- ==== Proof.KernelIdealRunFirst.lean ====
/-
  The body at the first point. The branch is taken: the scratch, handed over at unknown contents, is filled in ten
  chunks of 1000 rows, chunk j being rows 1000 j .. 1000 j + 999 of the features times the concatenated weights;
  then the body goes on as at every other point, reading the scratch it has just filled.
-/
import proofs.«181799_g85478439125828_cont_9to1_m_54_13_alg».proof.Proof.KernelIdealShared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the two output buffers and in the scratch at the first point, as pieces (last
    first), with the proof that from whole buffers — the inputs at known contents, the outputs and the scratch at
    anything — the body runs to the continuation holding the inputs as they were and each output and the scratch
    with its pieces written. -/
noncomputable def runFirst (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i)
    (x0 : Vec F S10000x128 .f32) (x1 : Vec F S128x256 .f32) (x2 : Vec F S200x10000 .f32) (x3 : Vec F S200x10000 .f32) :
    Σ' (L4 : List (View.Piece (Elt F) S400x128 .f32)) (L5 : List (View.Piece (Elt F) S400x128 .f32)), { LS0 : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_body_split i arg1 harg1 arg2 harg2 arg3 harg3 arg4 harg4 arg5 harg5 arg6 harg6 arg7 harg7) K } := by
  refine ⟨?_, ?_, ?_, fun E K => ?run⟩
  case run =>
    simp only [cc0__gcn_body_split_eq_skeleton]; unfold cc0__gcn_body_split_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Frame

end
-- ==== Proof.KernelIdealFrame.lean ====
/-
  The frame of the kernel: every fair execution of the program terminates without a fault, the two outputs end at
  what the body wrote back point by point, and the four arguments end as launched.

  After the first point the scratch holds the product of the features and the concatenated weights, and no later
  point writes it: the invariant carried from point to point is the scratch at exactly those contents. At every
  point the two outputs' buffers end at the pieces the body stored, two stores of 200 rows tiling the 400.
-/
import proofs.«181799_g85478439125828_cont_9to1_m_54_13_alg».proof.Proof.KernelIdealRunLater
import proofs.«181799_g85478439125828_cont_9to1_m_54_13_alg».proof.Proof.KernelIdealRunFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover their buffers -/

theorem coverLater_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) (y : S400x128.Idx) :
    ∃ pc ∈ (runLater c i arg1 harg1 arg2 harg2 arg3 harg3 arg4 harg4 arg5 harg5 arg6 harg6 arg7 harg7 hc0 x0 x1 x2 x3 xs0).1, y ∈ pc.1.set :=
  View.cover_of_tiledL (runLater c i arg1 harg1 arg2 harg2 arg3 harg3 arg4 harg4 arg5 harg5 arg6 harg6 arg7 harg7 hc0 x0 x1 x2 x3 xs0).1 S200x128.size (by sl_kernel_rfl) y
theorem coverLater_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) (y : S400x128.Idx) :
    ∃ pc ∈ (runLater c i arg1 harg1 arg2 harg2 arg3 harg3 arg4 harg4 arg5 harg5 arg6 harg6 arg7 harg7 hc0 x0 x1 x2 x3 xs0).2.1, y ∈ pc.1.set :=
  View.cover_of_tiledL (runLater c i arg1 harg1 arg2 harg2 arg3 harg3 arg4 harg4 arg5 harg5 arg6 harg6 arg7 harg7 hc0 x0 x1 x2 x3 xs0).2.1 S200x128.size (by sl_kernel_rfl) y
theorem coverFirst_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) (y : S400x128.Idx) :
    ∃ pc ∈ (runFirst c i arg1 harg1 arg2 harg2 arg3 harg3 arg4 harg4 arg5 harg5 arg6 harg6 arg7 harg7 hc0 x0 x1 x2 x3).1, y ∈ pc.1.set :=
  View.cover_of_tiledL (runFirst c i arg1 harg1 arg2 harg2 arg3 harg3 arg4 harg4 arg5 harg5 arg6 harg6 arg7 harg7 hc0 x0 x1 x2 x3).1 S200x128.size (by sl_kernel_rfl) y
theorem coverFirst_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) (y : S400x128.Idx) :
    ∃ pc ∈ (runFirst c i arg1 harg1 arg2 harg2 arg3 harg3 arg4 harg4 arg5 harg5 arg6 harg6 arg7 harg7 hc0 x0 x1 x2 x3).2.1, y ∈ pc.1.set :=
  View.cover_of_tiledL (runFirst c i arg1 harg1 arg2 harg2 arg3 harg3 arg4 harg4 arg5 harg5 arg6 harg6 arg7 harg7 hc0 x0 x1 x2 x3).2.1 S200x128.size (by sl_kernel_rfl) y
/-- The ten chunks of 1000 rows tile the scratch. -/
theorem coverFirst_S (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) (y : S10000x256.Idx) :
    ∃ pc ∈ (runFirst c i arg1 harg1 arg2 harg2 arg3 harg3 arg4 harg4 arg5 harg5 arg6 harg6 arg7 harg7 hc0 x0 x1 x2 x3).2.2.1, y ∈ pc.1.set :=
  View.cover_of_tiledL (runFirst c i arg1 harg1 arg2 harg2 arg3 harg3 arg4 harg4 arg5 harg5 arg6 harg6 arg7 harg7 hc0 x0 x1 x2 x3).2.2.1 S1000x256.size (by sl_kernel_rfl) y

/-! ## What each buffer holds after the body -/

def outLater_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) : Vec F S400x128 .f32 :=
  VO0_4.read (Elt F) (VO0_4.writes (Elt F) VO0_4.junk (runLater c i arg1 harg1 arg2 harg2 arg3 harg3 arg4 harg4 arg5 harg5 arg6 harg6 arg7 harg7 hc0 x0 x1 x2 x3 xs0).1)
def outLater_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) : Vec F S400x128 .f32 :=
  VO0_5.read (Elt F) (VO0_5.writes (Elt F) VO0_5.junk (runLater c i arg1 harg1 arg2 harg2 arg3 harg3 arg4 harg4 arg5 harg5 arg6 harg6 arg7 harg7 hc0 x0 x1 x2 x3 xs0).2.1)
def outFirst_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) : Vec F S400x128 .f32 :=
  VO0_4.read (Elt F) (VO0_4.writes (Elt F) VO0_4.junk (runFirst c i arg1 harg1 arg2 harg2 arg3 harg3 arg4 harg4 arg5 harg5 arg6 harg6 arg7 harg7 hc0 x0 x1 x2 x3).1)
def outFirst_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) : Vec F S400x128 .f32 :=
  VO0_5.read (Elt F) (VO0_5.writes (Elt F) VO0_5.junk (runFirst c i arg1 harg1 arg2 harg2 arg3 harg3 arg4 harg4 arg5 harg5 arg6 harg6 arg7 harg7 hc0 x0 x1 x2 x3).2.1)
def scratchFirst (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) : Vec F S10000x256 .f32 :=
  VS0_0.read (Elt F) (VS0_0.writes (Elt F) VS0_0.junk (runFirst c i arg1 harg1 arg2 harg2 arg3 harg3 arg4 harg4 arg5 harg5 arg6 harg6 arg7 harg7 hc0 x0 x1 x2 x3).2.2.1)

/-- The first grid point. -/
def pt0 : Fin cfg0.N := ⟨0, lt_of_lt_of_eq (Nat.zero_lt_succ 24) (show 25 = cfg0.N from N_0.symm)⟩

theorem pt0_val : (pt0 : Fin cfg0.N).val = 0 := rfl

/-- What the scratch holds from the end of the first point on. -/
def sc (c : Dev nD) : Vec F S10000x256 .f32 :=
  scratchFirst c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) scM0_0 (Memref.isWhole_whole _) ((hcond0_0 pt0).mpr (Nat.zero_mod _)) (iblk m c 0 pt0) (iblk m c 1 pt0) (iblk m c 2 pt0) (iblk m c 3 pt0)

/-- What the two outputs' buffers hold after the body at point `t`. -/
def outsAt (c : Dev nD) (t : Fin cfg0.N) : Vec F S400x128 .f32 × Vec F S400x128 .f32 :=
  if h : t.val % 25 = 0 then
    (outFirst_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t),
     outFirst_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t))
  else
    (outLater_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h ((hcond0_0 t).mp hh)) (iblk m c 0 t) (iblk m c 1 t) (iblk m c 2 t) (iblk m c 3 t) (sc m c),
     outLater_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h ((hcond0_0 t).mp hh)) (iblk m c 0 t) (iblk m c 1 t) (iblk m c 2 t) (iblk m c 3 t) (sc m c))

theorem outsAt_first (c : Dev nD) (t : Fin cfg0.N) (h : t.val % 25 = 0) :
    outsAt m c t = (outFirst_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t),
     outFirst_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t)) := dif_pos h
theorem outsAt_later (c : Dev nD) (t : Fin cfg0.N) (h : ¬t.val % 25 = 0) :
    outsAt m c t = (outLater_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h ((hcond0_0 t).mp hh)) (iblk m c 0 t) (iblk m c 1 t) (iblk m c 2 t) (iblk m c 3 t) (sc m c),
     outLater_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h ((hcond0_0 t).mp hh)) (iblk m c 0 t) (iblk m c 1 t) (iblk m c 2 t) (iblk m c 3 t) (sc m c)) := dif_neg h

/-- The invariant before position `n`: before the first point the scratch at anything; afterwards the scratch at
    the product it was filled with. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | _ + 1, _ => owns (c : Thread nD τ) scM0_0 fullShare (sc m c)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare (sc m c) := rfl
theorem PhiS_pos (c : Dev nD) (n : ℕ) (h : n ≤ cfg0.N) (hz : n ≠ 0) :
    PhiS m c n h = owns (c : Thread nD τ) scM0_0 fullShare (sc m c) := by
  cases n with
  | zero => exact absurd rfl hz
  | succ n => rfl

/-! ## The proof data -/

/-- The arrays as the call finds them; after the body each input's buffer at its block and each output's at the
    pieces stored; the two windows on the adjacency matrix hold it in halves; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t).1
    | ⟨5, _⟩ => (outsAt m c t).2
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t).1 := by dsimp only [dats]
theorem after0_5 (c : Dev nD) (t : Fin cfg0.N) : (dats m 0 c).after 5 t = (outsAt m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (outsAt m c t).1 := by
  unfold Dat.leavesExact; rw [liveAt0_4 t, after0_4]
theorem leaves0_5 (c : Dev nD) (t : Fin cfg0.N) : (dats m 0 c).leavesExact 5 t = owns (c : Thread nD τ) (ms0_5 t) fullShare (outsAt m c t).2 := by
  unfold Dat.leavesExact; rw [liveAt0_5 t, after0_5]

set_option maxHeartbeats 4800000 in
/-- The body at any point. At the first it is handed the scratch at anything and leaves it at the product; at
    a later point it is handed the scratch at the product and leaves it so. The inputs' buffers hold their blocks
    and are left in place; the outputs' buffers end at the pieces stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  have hN : t.val < 25 := lt_of_lt_of_eq t.isLt (show cfg0.N = 25 from N_0)
  by_cases h0 : t.val % 25 = 0
  · obtain rfl : t = pt0 := Fin.ext (by rw [pt0_val]; omega)
    rw [outsAt_first m c pt0 h0]
    unfold outFirst_4 outFirst_5 sc scratchFirst; (try dsimp only)
    rw [PhiS_castSucc m c pt0, PhiS_zero m c _ _ pt0_val, scopedRest0_owns]
    iintro ⟨⟨%ds, HS0⟩, Ho, ⟨%d0, H0⟩, ⟨%d1, H1⟩, ⟨%d2, H2⟩, ⟨%d3, H3⟩, ⟨%d4, H4⟩, ⟨%d5, H5⟩⟩
    iapply ((runFirst c (grid0.coords pt0) _ _ _ _ _ _ _ _ _ _ _ _ _ _ ((hcond0_0 pt0).mpr h0) (iblk m c 0 pt0) (iblk m c 1 pt0) (iblk m c 2 pt0) (iblk m c 3 pt0)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexists _; iexact HS0
    iintro ⟨H0, H1, H2, H3, ⟨%e4, H4⟩, ⟨%e5, H5⟩, ⟨%es0, HS0⟩⟩
    isplitl [HS0]
    · unfold owns; iexists _; isplitr
      swap; · iexact HS0
      ipureintro; exact View.read_writes_of_cover _ _ _ _ _ (coverFirst_S (F := F) c _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirst_4 (F := F) c _ _ _ _ _ _ _ _ _ _ _ _ _ _ _ _ _ _ _ _)
    unfold owns; iexists _; isplitr
    swap; · iexact H5
    ipureintro; exact View.read_writes_of_cover _ _ _ _ _ (coverFirst_5 (F := F) c _ _ _ _ _ _ _ _ _ _ _ _ _ _ _ _ _ _ _ _)
  · rw [outsAt_later m c t h0]
    unfold outLater_4 outLater_5; (try dsimp only)
    rw [PhiS_castSucc m c t, PhiS_pos m c _ _ (by omega)]
    iintro ⟨HS0, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hh => h0 ((hcond0_0 t).mp hh)) (iblk m c 0 t) (iblk m c 1 t) (iblk m c 2 t) (iblk m c 3 t) (sc m c)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverLater_4 (F := F) c _ _ _ _ _ _ _ _ _ _ _ _ _ _ _ _ _ _ _ _ _)
    unfold owns; iexists _; isplitr
    swap; · iexact H5
    ipureintro; exact View.read_writes_of_cover _ _ _ _ _ (coverLater_5 (F := F) c _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-- Before the first point the scratch is held at anything. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]

/-- After the last point what the scratch holds is forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest0_owns]
  iintro HS0
  iexists _; iexact HS0

/-! ## The run and the frame -/

/-- Apart from the second window on the adjacency matrix, the windows' arrays are distinct buffers. -/
theorem arr_injOn : Set.InjOn (Pipeline.arrRef spec0) ((Finset.univ.erase (3 : Fin 6) : Finset (Fin 6)) : Set (Fin 6)) := by
  have key : ∀ a b : Fin 6, a ≠ 3 → b ≠ 3 → Pipeline.arrRef spec0 a = Pipeline.arrRef spec0 b → a = b := by decide
  intro a ha b hb hab
  exact key a b (Finset.ne_of_mem_erase (Finset.mem_coe.mp ha)) (Finset.ne_of_mem_erase (Finset.mem_coe.mp hb)) hab

set_option backward.isDefEq.respectTransparency.types false in
/-- Every fair execution of the program terminates, with every windowed array at what the proof data compute and
    every other argument as the call found it. -/
theorem run_main : θ_run defs (onTc (τ := τ) (main (F := F))) (s₀ m ρ) (Pipeline.FramePost cfgs (dats m) 0 (V m)) :=
  Pipeline.θ_run_frame_pair_rest_track cfgs (dats m) (0 : Fin 1) defs₀ Variants.none cellOf_inj winFacts₀0 block_pos0 arr_whole0 stage_whole0
    m ρ main (hbody := fun c => (body_obligation m c).loose) (howed := fun _ _ => rfl)
    (w₁ := (2 : Fin 6)) (w₂ := (3 : Fin 6)) (h12 := by decide) (heq := by decide) (hinjOn := arr_injOn)
    (hq₁ := fun _ => rfl) (hq₂ := fun _ => rfl)
    (hq := fun c w h2 h3 => by
      fin_cases w
      · rfl
      · rfl
      · exact absurd rfl h2
      · exact absurd rfl h3
      · rfl
      · rfl)
    (V := V m) (hmain := hmain m Variants.none) (hA := A_eq m) (hin := hin m) (hout := hout m)

/-- The frame claim at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.KernelIdealPieces.lean ====
/-
  The stores of the body, named. The scratch is filled by ten stores, chunk j the product of rows
  1000 j .. 1000 j + 999 of the features with the concatenated weights; each output block is written by two stores,
  rows 0 .. 199 computed from the first adjacency window and rows 200 .. 399 from the second, both against the
  scratch. At the first point the scratch the body reads back is the one its own ten stores left.
-/
import proofs.«181799_g85478439125828_cont_9to1_m_54_13_alg».proof.Proof.KernelIdealFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two offsets of a rank-2 rectangle at the origin. -/
theorem origin2 : (![0, 0] : Fin 2 → Nat) = fun _ => 0 := by
  funext a; match a with | ⟨0, _⟩ => rfl | ⟨1, _⟩ => rfl

/-- The ten stores that fill the scratch from the features `x0` and the concatenated weights `x1`, last first. -/
def supPieces (x0 : Vec F S10000x128 .f32) (x1 : Vec F S128x256 .f32) : List (View.Piece (Elt F) S10000x256 .f32) :=
  [ ⟨Rect.unit ![9000, 0] S1000x256.size Facts₀.inb_S10000x256_S1000x256_9000_0, k0_pay12 (View.ld x0 (Rect.unit ![9000, 0] S1000x128.size Facts₀.inb_S10000x128_S1000x128_9000_0)) x1⟩,
    ⟨Rect.unit ![8000, 0] S1000x256.size Facts₀.inb_S10000x256_S1000x256_8000_0, k0_pay11 (View.ld x0 (Rect.unit ![8000, 0] S1000x128.size Facts₀.inb_S10000x128_S1000x128_8000_0)) x1⟩,
    ⟨Rect.unit ![7000, 0] S1000x256.size Facts₀.inb_S10000x256_S1000x256_7000_0, k0_pay10 (View.ld x0 (Rect.unit ![7000, 0] S1000x128.size Facts₀.inb_S10000x128_S1000x128_7000_0)) x1⟩,
    ⟨Rect.unit ![6000, 0] S1000x256.size Facts₀.inb_S10000x256_S1000x256_6000_0, k0_pay9 (View.ld x0 (Rect.unit ![6000, 0] S1000x128.size Facts₀.inb_S10000x128_S1000x128_6000_0)) x1⟩,
    ⟨Rect.unit ![5000, 0] S1000x256.size Facts₀.inb_S10000x256_S1000x256_5000_0, k0_pay8 (View.ld x0 (Rect.unit ![5000, 0] S1000x128.size Facts₀.inb_S10000x128_S1000x128_5000_0)) x1⟩,
    ⟨Rect.unit ![4000, 0] S1000x256.size Facts₀.inb_S10000x256_S1000x256_4000_0, k0_pay7 (View.ld x0 (Rect.unit ![4000, 0] S1000x128.size Facts₀.inb_S10000x128_S1000x128_4000_0)) x1⟩,
    ⟨Rect.unit ![3000, 0] S1000x256.size Facts₀.inb_S10000x256_S1000x256_3000_0, k0_pay6 (View.ld x0 (Rect.unit ![3000, 0] S1000x128.size Facts₀.inb_S10000x128_S1000x128_3000_0)) x1⟩,
    ⟨Rect.unit ![2000, 0] S1000x256.size Facts₀.inb_S10000x256_S1000x256_2000_0, k0_pay5 (View.ld x0 (Rect.unit ![2000, 0] S1000x128.size Facts₀.inb_S10000x128_S1000x128_2000_0)) x1⟩,
    ⟨Rect.unit ![1000, 0] S1000x256.size Facts₀.inb_S10000x256_S1000x256_1000_0, k0_pay4 (View.ld x0 (Rect.unit ![1000, 0] S1000x128.size Facts₀.inb_S10000x128_S1000x128_1000_0)) x1⟩,
    ⟨Rect.unit ![0, 0] S1000x256.size Facts₀.inb_S10000x256_S1000x256_0_0, k0_pay3 (View.ld x0 (Rect.unit ![0, 0] S1000x128.size Facts₀.inb_S10000x128_S1000x128_0_0)) x1⟩ ]

/-- What the scratch holds once filled. -/
def supOf (x0 : Vec F S10000x128 .f32) (x1 : Vec F S128x256 .f32) : Vec F S10000x256 .f32 := View.canon (supPieces x0 x1)

/-- The two stores into the first output's block, from the two adjacency windows `x2`, `x3` and the scratch `S`. -/
def outPieces4 (x2 x3 : Vec F S200x10000 .f32) (S : Vec F S10000x256 .f32) : List (View.Piece (Elt F) S400x128 .f32) :=
  [ ⟨Rect.unit ![200, 0] S200x128.size Facts₀.inb_S400x128_S200x128_200_0, k0_pay1 (k0_pay17 x3 S) (k0_pay19 x3 S)⟩,
    ⟨Rect.unit ![0, 0] S200x128.size Facts₀.inb_S400x128_S200x128_0_0, k0_pay14 x2 S⟩ ]
/-- The two stores into the second output's block. -/
def outPieces5 (x2 x3 : Vec F S200x10000 .f32) (S : Vec F S10000x256 .f32) : List (View.Piece (Elt F) S400x128 .f32) :=
  [ ⟨Rect.unit ![200, 0] S200x128.size Facts₀.inb_S400x128_S200x128_200_0, k0_pay2 (k0_pay18 x3 S)⟩,
    ⟨Rect.unit ![0, 0] S200x128.size Facts₀.inb_S400x128_S200x128_0_0, k0_pay15 x2 S⟩ ]

/-! ## A later point -/

theorem runLater_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) :
    (runLater c i arg1 harg1 arg2 harg2 arg3 harg3 arg4 harg4 arg5 harg5 arg6 harg6 arg7 harg7 hc0 x0 x1 x2 x3 xs0).1 = outPieces4 x2 x3 xs0 := by
  unfold runLater outPieces4
  dsimp only
  sl_unfold_words
  simp only [View.readAt_eq_ld, harg3.read_unread, harg4.read_unread, harg7.read_unread,
    View.ld_unit_zero (S := S200x10000) origin2, View.ld_unit_zero (S := S10000x256) origin2]
  try rfl

theorem runLater_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : ¬cond0_0 i) (x0 : Vec F S10000x128 .f32) (x1 : Vec F S128x256 .f32) (x2 : Vec F S200x10000 .f32) (x3 : Vec F S200x10000 .f32) (xs0 : Vec F S10000x256 .f32) :
    (runLater c i arg1 harg1 arg2 harg2 arg3 harg3 arg4 harg4 arg5 harg5 arg6 harg6 arg7 harg7 hc0 x0 x1 x2 x3 xs0).2.1 = outPieces5 x2 x3 xs0 := by
  unfold runLater outPieces5
  dsimp only
  sl_unfold_words
  simp only [View.readAt_eq_ld, harg3.read_unread, harg4.read_unread, harg7.read_unread,
    View.ld_unit_zero (S := S200x10000) origin2, View.ld_unit_zero (S := S10000x256) origin2]
  try rfl

/-! ## The first point -/

theorem runFirst_S (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) :
    (runFirst c i arg1 harg1 arg2 harg2 arg3 harg3 arg4 harg4 arg5 harg5 arg6 harg6 arg7 harg7 hc0 x0 x1 x2 x3).2.2.1 = supPieces x0 x1 := by
  unfold runFirst supPieces
  dsimp only
  sl_unfold_words
  simp only [View.readAt_eq_ld, harg1.read_unread, harg2.read_unread, View.ld_unit_zero (S := S128x256) origin2]
  try rfl

/-- The scratch read back whole after its ten stores is what they left. -/
theorem readBack (v : View sig .tc .vmem S10000x256 .f32) (L : List (View.Piece (Elt F) S10000x256 .f32)) :
    v.readCov L (Rect.unit ![0, 0] S10000x256.size Facts₀.inb_S10000x256_S10000x256_0_0).toLoadRect = View.canon L := by
  rw [View.readCov_eq_canon']
  funext j
  exact congrFun (View.ld_unit_zero (S := S10000x256) origin2 Facts₀.inb_S10000x256_S10000x256_0_0 (View.canon L)) j

theorem runFirst_4 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) :
    (runFirst c i arg1 harg1 arg2 harg2 arg3 harg3 arg4 harg4 arg5 harg5 arg6 harg6 arg7 harg7 hc0 x0 x1 x2 x3).1 = outPieces4 x2 x3 (supOf x0 x1) := by
  have h : (runFirst c i arg1 harg1 arg2 harg2 arg3 harg3 arg4 harg4 arg5 harg5 arg6 harg6 arg7 harg7 hc0 x0 x1 x2 x3).1 = outPieces4 x2 x3 (arg7.view.readCov (supPieces x0 x1) (Rect.unit ![0, 0] S10000x256.size Facts₀.inb_S10000x256_S10000x256_0_0).toLoadRect) := by
    unfold runFirst outPieces4 supPieces
    dsimp only
    sl_unfold_words
    simp only [View.readAt_eq_ld, harg1.read_unread, harg2.read_unread, harg3.read_unread, harg4.read_unread,
      View.ld_unit_zero (S := S128x256) origin2, View.ld_unit_zero (S := S200x10000) origin2]
    try rfl
  rw [h, readBack arg7.view (supPieces x0 x1)]
  rfl

theorem runFirst_5 (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S10000x256 .f32) (harg7 : arg7.IsWhole) (hc0 : cond0_0 i) (x0 : Vec F S10000x128 .f32) (x1 : Vec F S128x256 .f32) (x2 : Vec F S200x10000 .f32) (x3 : Vec F S200x10000 .f32) :
    (runFirst c i arg1 harg1 arg2 harg2 arg3 harg3 arg4 harg4 arg5 harg5 arg6 harg6 arg7 harg7 hc0 x0 x1 x2 x3).2.1 = outPieces5 x2 x3 (supOf x0 x1) := by
  have h : (runFirst c i arg1 harg1 arg2 harg2 arg3 harg3 arg4 harg4 arg5 harg5 arg6 harg6 arg7 harg7 hc0 x0 x1 x2 x3).2.1 = outPieces5 x2 x3 (arg7.view.readCov (supPieces x0 x1) (Rect.unit ![0, 0] S10000x256.size Facts₀.inb_S10000x256_S10000x256_0_0).toLoadRect) := by
    unfold runFirst outPieces5 supPieces
    dsimp only
    sl_unfold_words
    simp only [View.readAt_eq_ld, harg1.read_unread, harg2.read_unread, harg3.read_unread, harg4.read_unread,
      View.ld_unit_zero (S := S128x256) origin2, View.ld_unit_zero (S := S200x10000) origin2]
    try rfl
  rw [h, readBack arg7.view (supPieces x0 x1)]
  rfl

/-! ## What the buffers hold, point by point -/

variable (m : (ℓ : Loc nD τ sig) → Buf (Elt F) ℓ)

/-- From the end of the first point on the scratch holds the product of the features and the concatenated
    weights, as the first point's windows hold them. -/
theorem sc_eq (c : Dev nD) : sc m c = supOf (iblk m c 0 pt0) (iblk m c 1 pt0) := by
  unfold sc scratchFirst supOf
  rw [View.read_writes_junk_eq_canon, runFirst_S]

/-- The first output's buffer after the body at point `t`. -/
theorem outsAt_fst (c : Dev nD) (t : Fin cfg0.N) :
    (outsAt m c t).1 = View.canon (outPieces4 (iblk m c 2 t) (iblk m c 3 t) (supOf (iblk m c 0 pt0) (iblk m c 1 pt0))) := by
  have hN : t.val < 25 := lt_of_lt_of_eq t.isLt (show cfg0.N = 25 from N_0)
  by_cases h0 : t.val % 25 = 0
  · obtain rfl : t = pt0 := Fin.ext (by rw [pt0_val]; omega)
    rw [outsAt_first m c pt0 h0]
    unfold outFirst_4
    dsimp only
    rw [View.read_writes_junk_eq_canon, runFirst_4]
  · rw [outsAt_later m c t h0]
    unfold outLater_4
    dsimp only
    rw [View.read_writes_junk_eq_canon, runLater_4, sc_eq]

/-- The second output's buffer after the body at point `t`. -/
theorem outsAt_snd (c : Dev nD) (t : Fin cfg0.N) :
    (outsAt m c t).2 = View.canon (outPieces5 (iblk m c 2 t) (iblk m c 3 t) (supOf (iblk m c 0 pt0) (iblk m c 1 pt0))) := by
  have hN : t.val < 25 := lt_of_lt_of_eq t.isLt (show cfg0.N = 25 from N_0)
  by_cases h0 : t.val % 25 = 0
  · obtain rfl : t = pt0 := Fin.ext (by rw [pt0_val]; omega)
    rw [outsAt_first m c pt0 h0]
    unfold outFirst_5
    dsimp only
    rw [View.read_writes_junk_eq_canon, runFirst_5]
  · rw [outsAt_later m c t h0]
    unfold outLater_5
    dsimp only
    rw [View.read_writes_junk_eq_canon, runLater_5, sc_eq]

end Cert.KernelIdeal.Frame

end
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibMaxLayout.lean ====
/-
  The largest entry of a row, read at an index given by coordinates, over the extended reals: a maximum along the
  second axis of an `[a, n]` array, read at row `p`, is the fold of `max`, from the starting value, over the entries
  `(p, k)` of that row — for the vector unit's reduction (started from the value its accumulator word denotes) and for
  the host's one-operand reduction with a `max` body (started from its initial value's one element) alike.  Both are the
  library's single-axis readings with the inserted index named by its two coordinates.
  General in the extents; stated over indices built from coordinates so that they apply by unification.  The proofs of
  the reductions' side conditions are variables, so that whatever proof a program's text carries unifies with them.
-/
import Idealize.ShloMosaic.Lib.ValueIdx
import Idealize.ShloMosaic.PureOps.Ideal.Laws

namespace Cert.Lib.MaxLayout

open Idealize.ShloMosaic Idealize.ShloMosaic.ValueIdx

/-- The vector unit's maximum along the second axis, read at row `p`. -/
theorem max_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin n)).fold max (Ideal.ofBits .f32 acc) fun k => v (ix2 p k) := by
  refine (Ideal.multiReduction_maximumf_single v acc h hφ hacc (ix1 p)).trans ?_
  refine congrArg (fun f => (Finset.univ : Finset (Fin n)).fold max (Ideal.ofBits .f32 acc) f) (funext fun k => congrArg v (funext fun d => ?_))
  match d with
  | ⟨0, _⟩ => rfl
  | ⟨1, _⟩ => rfl

/-- The host's maximum along the second axis, read at row `p`: the fold starts from the initial value's element. -/
theorem hostMax_axis1_apply {a n : ℕ} {u : Shape} (x : (⟨2, ![a, n]⟩ : Shape).Idx → EReal) (init : u.Idx → EReal)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := .f32)) x init h' hu (ix1 p)
      = (Finset.univ : Finset (Fin n)).fold max (init (Shape.Idx.first hu)) fun k => x (ix2 p k) := by
  refine (Host.reduce_eq_fold_single (FloatOps.maximumf (F := Ideal) (φ := .f32)) x init h' h hu (ix1 p)).trans ?_
  refine congrArg (fun f => (Finset.univ : Finset (Fin n)).fold max (init (Shape.Idx.first hu)) f) (funext fun k => congrArg x (funext fun d => ?_))
  match d with
  | ⟨0, _⟩ => rfl
  | ⟨1, _⟩ => rfl

end Cert.Lib.MaxLayout
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibRowLit.lean ====
/-
  Row reductions and the column they are kept in, read at an index given by coordinates, in the spelling a kernel
  body's text carries: the accumulator a literal word and the side conditions the literal proofs `(.inl rfl) rfl`.
    * a sum along the second axis of an `[a, n]` array from the zero word, read at row `p`, is the sum over `k` of the
      entries `(p, k)`;
    * a maximum along the second axis from the word of minus infinity, read at row `p`, is the fold of `max`, from the
      value that word denotes, over the entries `(p, k)`;
    * a vector of `a` row values cast to an `[a, 1]` column and repeated over `[a, n]` reads, at `(p, k)`, the value at `p`.
  General in the extents.  Stated with the proofs spelt as a printed body spells them, so that they rewrite inside an
  unfolded body, where a statement over a hypothesis `acc = neutral` does not match.
-/
import proofs.«181799_g85478439125828_cont_9to1_m_54_13_alg».proof.Proof.LibReduceLayout
import proofs.«181799_g85478439125828_cont_9to1_m_54_13_alg».proof.Proof.LibMaxLayout
import proofs.«181799_g85478439125828_cont_9to1_m_54_13_alg».proof.Proof.LibColumnLayout

namespace Cert.Lib.RowLit

open Idealize.ShloMosaic Idealize.ShloMosaic.ValueIdx

/-- A sum along the second axis from the zero word, read at row `p`. -/
theorem rowSum_lit {a n : ℕ} (v : FVec Ideal ⟨2, ![a, n]⟩ .f32) (h : (⟨2, ![a, n]⟩ : Shape).Reduces [1] ⟨1, ![a]⟩) (p : Fin a) :
    multiReduction .add [1] ⟨1, ![a]⟩ v 0x00000000#32 h (.inl rfl) rfl (ix1 p) = ∑ k : Fin n, v (ix2 p k) :=
  Cert.Lib.ReduceLayout.sum_axis1_apply v _ h _ _ p

/-- A maximum along the second axis from the word of minus infinity, read at row `p`. -/
theorem rowMax_lit {a n : ℕ} (v : FVec Ideal ⟨2, ![a, n]⟩ .f32) (h : (⟨2, ![a, n]⟩ : Shape).Reduces [1] ⟨1, ![a]⟩) (p : Fin a) :
    multiReduction .maximumf [1] ⟨1, ![a]⟩ v 0xFF800000#32 h (.inl rfl) rfl (ix1 p)
      = (Finset.univ : Finset (Fin n)).fold max (Ideal.ofBits .f32 0xFF800000#32) fun k => v (ix2 p k) :=
  Cert.Lib.MaxLayout.max_axis1_apply v _ h _ _ p

variable {α : Type}

/-- A vector of row values kept as a column and repeated along the second axis reads, at `(p, k)`, the value at `p`. -/
theorem column_apply {a n : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, n]⟩) (p : Fin a) (k : Fin n) :
    broadcastTo ⟨2, ![a, n]⟩ (shapeCast ⟨2, ![a, 1]⟩ x h₁) h₂ (ix2 p k) = x (ix1 p) :=
  (Cert.Lib.ColumnLayout.broadcastTo_a1_ab_apply _ h₂ p k).trans (Cert.Lib.ColumnLayout.shapeCast_a_a1_apply x h₁ p 0)

end Cert.Lib.RowLit
-- ==== Proof.LayerSpec.lean ====
/-
  The layer both programs compute, as one function of its arrays over the extended reals.

  For an adjacency matrix A (10000 × 10000), features X (10000 × 128) and a weight matrix W (128 × 128, given as a
  function of its two coordinates), the layer's entry (p, q) is

      Z(p, q) / max( sqrt( Σ_c Z(p, c)² ), floor ),     Z(p, q) = Σ_k A(p, k) · ( Σ_j X(k, j) · W(j, q) ),

  where the floor is the value of the word 0x2B8CBCCC (about 1e-12): each row of A · (X · W) divided by its
  Euclidean norm, the norm floored. Nothing here needs the entries to be finite: the same sums, product, square
  root, maximum and quotient stand on both sides.
-/
import Idealize.ShloMosaic.Lib.ValueIdx
import Idealize.ShloMosaic.PureOps.Ideal.Laws

noncomputable section

namespace Cert.Spec

open Idealize.ShloMosaic Idealize.ShloMosaic.ValueIdx
open scoped BigOperators

/-- The features times the weights, at (k, q). -/
def support (x : (⟨2, ![10000, 128]⟩ : Shape).Idx → EReal) (W : Fin 128 → Fin 128 → EReal) (k : Fin 10000) (q : Fin 128) : EReal :=
  ∑ j : Fin 128, x (ix2 k j) * W j q

/-- The adjacency matrix times a 10000 × 128 array, at (p, q). -/
def aggregate (adj : (⟨2, ![10000, 10000]⟩ : Shape).Idx → EReal) (S : Fin 10000 → Fin 128 → EReal) (p : Fin 10000) (q : Fin 128) : EReal :=
  ∑ k : Fin 10000, adj (ix2 p k) * S k q

/-- The floor of the norm. -/
def floorValue : EReal := Ideal.ofBits .f32 0x2B8CBCCC#32

/-- A row divided by its floored Euclidean norm, at column q. -/
def unitRow (z : Fin 128 → EReal) (q : Fin 128) : EReal :=
  Ideal.div (z q) (max (Ideal.sqrt (∑ c : Fin 128, z c * z c)) floorValue)

/-- The layer, entry by entry. -/
def layer (adj : (⟨2, ![10000, 10000]⟩ : Shape).Idx → EReal) (x : (⟨2, ![10000, 128]⟩ : Shape).Idx → EReal)
    (W : Fin 128 → Fin 128 → EReal) : (⟨2, ![10000, 128]⟩ : Shape).Idx → EReal :=
  fun i => unitRow (aggregate adj (support x W) (i 0)) (i 1)

theorem layer_ix2 (adj : (⟨2, ![10000, 10000]⟩ : Shape).Idx → EReal) (x : (⟨2, ![10000, 128]⟩ : Shape).Idx → EReal)
    (W : Fin 128 → Fin 128 → EReal) (p : Fin 10000) (q : Fin 128) :
    layer adj x W (ix2 p q) = unitRow (aggregate adj (support x W) p) q := rfl

end Cert.Spec

end
-- ==== Proof.KernelIdealEntry.lean ====
/-
  The body's arithmetic read at an entry, over the extended reals.

  A block of 200 adjacency rows times the scratch is a 200 × 256 array; its left and right column halves are each
  normalised row by row. Read at (r, q), the left half's result is the row r of the product restricted to columns
  0 .. 127, divided by its floored norm, and the right half's the same over columns 128 .. 255. A chunk of the
  scratch is 1000 feature rows times the concatenated weights.
-/
import proofs.«181799_g85478439125828_cont_9to1_m_54_13_alg».proof.Proof.Gen.KernelIdeal.Skeleton
import proofs.«181799_g85478439125828_cont_9to1_m_54_13_alg».proof.Proof.LibPlainDot
import proofs.«181799_g85478439125828_cont_9to1_m_54_13_alg».proof.Proof.LibRowLit
import proofs.«181799_g85478439125828_cont_9to1_m_54_13_alg».proof.Proof.LayerSpec
import Idealize.ShloMosaic.Lib.Pipeline.Value
import Idealize.ShloMosaic.Lib.ValueLayout

set_option maxRecDepth 16384

noncomputable section

namespace Cert.KernelIdeal.Entry

open Cert.KernelIdeal Cert.KernelIdeal.Gen
open Idealize.ShloMosaic Idealize.ShloMosaic.ValueIdx
open scoped BigOperators

/-- Column c of the left half, and of the right half, of a 256-column array. -/
def colL (c : Fin 128) : Fin 256 := ⟨c.val, by omega⟩
def colR (c : Fin 128) : Fin 256 := ⟨c.val + 128, by omega⟩

/-- A block of adjacency rows times the scratch, at (r, q). -/
theorem product_apply (a : Vec Ideal S200x10000 .f32) (S : Vec Ideal S10000x256 .f32) (r : Fin 200) (q : Fin 256) :
    k0_pay13 (F := Ideal) a S (ix2 r q) = ∑ k : Fin 10000, a (ix2 r k) * S (ix2 k q) := by
  unfold k0_pay13
  exact Cert.Lib.PlainDot.matmul_zero_apply dot_S200x10000_S10000x256_S200x256_1_0_0_1_n_n rfl rfl rfl rfl rfl rfl rfl rfl none a S r q

/-- A 200 × 128 array normalised row by row, as the body writes it, at (r, q). -/
theorem normalised_apply (Z : FVec Ideal S200x128 .f32) (r : Fin 200) (q : Fin 128) :
    divf Z (broadcastTo S200x128 (maximumf (sqrt (shapeCast S200x1 (multiReduction .add [1] S200 (mulf Z Z) 0x00000000#32
        Facts₀.reduces_S200x128_S200 (.inl rfl) rfl) Facts₀.shapeCasts_S200_S200x1)) (broadcast S200x1 (Scalar.ofBits .f32 0x2B8CBCCC#32)))
        Facts₀.broadcasts_S200x1_S200x128) (ix2 r q)
      = Cert.Spec.unitRow (fun c => Z (ix2 r c)) q := by
  rw [divf_apply, Cert.Lib.ColumnLayout.broadcastTo_a1_ab_apply, maximumf_apply, broadcast_apply]
  show Ideal.div (Z (ix2 r q)) (max (Ideal.sqrt (shapeCast S200x1 _ Facts₀.shapeCasts_S200_S200x1 (ix2 r (0 : Fin 1)))) _) = _
  rw [Cert.Lib.ColumnLayout.shapeCast_a_a1_apply, Cert.Lib.RowLit.rowSum_lit]
  rfl

/-- The left half of the product, at (r, c). -/
theorem left_apply (a : Vec Ideal S200x10000 .f32) (S : Vec Ideal S10000x256 .f32) (r : Fin 200) (c : Fin 128) :
    extractStridedSlice S200x128 ![0, 0] (k0_pay13 (F := Ideal) a S) Facts₀.slices_S200x256_o0_0_S200x128 (ix2 r c)
      = ∑ k : Fin 10000, a (ix2 r k) * S (ix2 k (colL c)) := by
  rw [extractStridedSlice_apply ![0, 0] _ Facts₀.slices_S200x256_o0_0_S200x128 (ix2 r c) (ix2 r (colL c)) (fun ax => by
    match ax with
    | ⟨0, _⟩ => show r.val = 0 + r.val; omega
    | ⟨1, _⟩ => show c.val = 0 + c.val; omega)]
  exact product_apply a S r (colL c)

/-- The right half of the product, at (r, c). -/
theorem right_apply (a : Vec Ideal S200x10000 .f32) (S : Vec Ideal S10000x256 .f32) (r : Fin 200) (c : Fin 128) :
    extractStridedSlice S200x128 ![0, 128] (k0_pay13 (F := Ideal) a S) Facts₀.slices_S200x256_o0_128_S200x128 (ix2 r c)
      = ∑ k : Fin 10000, a (ix2 r k) * S (ix2 k (colR c)) := by
  rw [extractStridedSlice_apply ![0, 128] _ Facts₀.slices_S200x256_o0_128_S200x128 (ix2 r c) (ix2 r (colR c)) (fun ax => by
    match ax with
    | ⟨0, _⟩ => show r.val = 0 + r.val; omega
    | ⟨1, _⟩ => show c.val + 128 = 128 + c.val; omega)]
  exact product_apply a S r (colR c)

/-- The first output's rows from the first adjacency window, at (r, q). -/
theorem out1_apply (a : Vec Ideal S200x10000 .f32) (S : Vec Ideal S10000x256 .f32) (r : Fin 200) (q : Fin 128) :
    k0_pay14 (F := Ideal) a S (ix2 r q)
      = Cert.Spec.unitRow (fun c => ∑ k : Fin 10000, a (ix2 r k) * S (ix2 k (colL c))) q := by
  unfold k0_pay14
  refine (normalised_apply _ r q).trans ?_
  exact congrArg (fun z => Cert.Spec.unitRow z q) (funext fun c => left_apply a S r c)

/-- The second output's rows from the first adjacency window, at (r, q). -/
theorem out2_apply (a : Vec Ideal S200x10000 .f32) (S : Vec Ideal S10000x256 .f32) (r : Fin 200) (q : Fin 128) :
    k0_pay15 (F := Ideal) a S (ix2 r q)
      = Cert.Spec.unitRow (fun c => ∑ k : Fin 10000, a (ix2 r k) * S (ix2 k (colR c))) q := by
  unfold k0_pay15
  refine (normalised_apply _ r q).trans ?_
  exact congrArg (fun z => Cert.Spec.unitRow z q) (funext fun c => right_apply a S r c)

/-- The rows computed from the second adjacency window are the same function of that window. -/
theorem out1_second (a : Vec Ideal S200x10000 .f32) (S : Vec Ideal S10000x256 .f32) :
    k0_pay1 (F := Ideal) (k0_pay17 a S) (k0_pay19 a S) = k0_pay14 a S := rfl
theorem out2_second (a : Vec Ideal S200x10000 .f32) (S : Vec Ideal S10000x256 .f32) :
    k0_pay2 (F := Ideal) (k0_pay18 a S) = k0_pay15 a S := rfl

/-- A chunk of the scratch: 1000 feature rows times the concatenated weights, at (r, q). -/
theorem chunk_apply (xc : Vec Ideal S1000x128 .f32) (w : Vec Ideal S128x256 .f32) (r : Fin 1000) (q : Fin 256) :
    k0_pay3 (F := Ideal) xc w (ix2 r q) = ∑ j : Fin 128, xc (ix2 r j) * w (ix2 j q) := by
  unfold k0_pay3
  simp only [shapeCast_self]
  exact Cert.Lib.PlainDot.matmul_zero_apply dot_S1000x128_S128x256_S1000x256_1_0_0_1_n_n rfl rfl rfl rfl rfl rfl rfl rfl none xc w r q

/-- The ten chunks are one function of their operands. -/
theorem chunk4 : @k0_pay4 Ideal _ = k0_pay3 := rfl
theorem chunk5 : @k0_pay5 Ideal _ = k0_pay3 := rfl
theorem chunk6 : @k0_pay6 Ideal _ = k0_pay3 := rfl
theorem chunk7 : @k0_pay7 Ideal _ = k0_pay3 := rfl
theorem chunk8 : @k0_pay8 Ideal _ = k0_pay3 := rfl
theorem chunk9 : @k0_pay9 Ideal _ = k0_pay3 := rfl
theorem chunk10 : @k0_pay10 Ideal _ = k0_pay3 := rfl
theorem chunk11 : @k0_pay11 Ideal _ = k0_pay3 := rfl
theorem chunk12 : @k0_pay12 Ideal _ = k0_pay3 := rfl

end Cert.KernelIdeal.Entry

end
-- ==== Proof.KernelIdealWhole.lean ====
/-
  From what each grid point writes back to the two whole outputs, over the extended reals.

  The scratch holds, at (k, q), the sum over j of X(k, j) · Wcat(j, q), Wcat the two weight matrices side by side.
  Point t's first adjacency window is rows 400 t .. 400 t + 199 of A and its second rows 400 t + 200 .. 400 t + 399,
  so the block it writes into each output is rows 400 t .. 400 t + 399 of the layer of A, X and the matching half of
  Wcat. The 25 blocks tile the 10000 rows, so after the run each output IS that layer; and the left half of Wcat is
  the first weight matrix, the right half the second.
-/
import proofs.«181799_g85478439125828_cont_9to1_m_54_13_alg».proof.Proof.KernelIdealPieces
import proofs.«181799_g85478439125828_cont_9to1_m_54_13_alg».proof.Proof.KernelIdealEntry
import Idealize.ShloMosaic.Lib.StableHlo.Run

set_option maxRecDepth 16384

noncomputable section

namespace Cert.KernelIdeal.Whole

open Cert.KernelIdeal Cert.KernelIdeal.Gen Cert.KernelIdeal.Frame Cert.KernelIdeal.Entry
open Idealize.ShloMosaic Idealize.ShloMosaic.TcCoe Idealize.ShloMosaic.Tactic Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-! ## The index maps -/

/-- Where each window's block sits at point t: the whole features and weights at the origin, the adjacency windows
    at block rows 2 t and 2 t + 1, the outputs at block row t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The features' window holds the features. -/
theorem iblk0_apply (c : Dev nD) (t : Fin cfg0.N) (k : Fin 10000) (j : Fin 128) :
    (iblk m c 0 t : Vec Ideal S10000x128 .f32) (ix2 k j) = V m c main_arg0 (ix2 k j) := by
  obtain ⟨e00, e01, -⟩ := idx_facts t
  show V m c main_arg0 (((cfg0.win 0).blk t).view.emb (ix2 k j)) = _
  refine congrArg (V m c main_arg0) (funext fun a => Fin.ext ?_)
  match a with
  | ⟨0, _⟩ => show win0_0.index t (0 : Fin 2) * 10000 + 1 * k.val = k.val; omega
  | ⟨1, _⟩ => show win0_0.index t (1 : Fin 2) * 128 + 1 * j.val = j.val; omega

/-- The weights' window holds the concatenated weights. -/
theorem iblk1_apply (c : Dev nD) (t : Fin cfg0.N) (j : Fin 128) (q : Fin 256) :
    (iblk m c 1 t : Vec Ideal S128x256 .f32) (ix2 j q) = V m c main_v0 (ix2 j q) := by
  obtain ⟨-, -, e10, e11, -⟩ := idx_facts t
  show V m c main_v0 (((cfg0.win 1).blk t).view.emb (ix2 j q)) = _
  refine congrArg (V m c main_v0) (funext fun a => Fin.ext ?_)
  match a with
  | ⟨0, _⟩ => show win0_1.index t (0 : Fin 2) * 128 + 1 * j.val = j.val; omega
  | ⟨1, _⟩ => show win0_1.index t (1 : Fin 2) * 256 + 1 * q.val = q.val; omega

/-- The first adjacency window holds rows 400 t .. 400 t + 199. -/
theorem iblk2_apply (c : Dev nD) (t : Fin cfg0.N) (r : Fin 200) (k : Fin 10000) (h : 400 * t.val + r.val < 10000) :
    (iblk m c 2 t : Vec Ideal S200x10000 .f32) (ix2 r k) = V m c main_arg1 (ix2 (⟨400 * t.val + r.val, h⟩ : Fin 10000) k) := by
  obtain ⟨-, -, -, -, e20, e21, -⟩ := idx_facts t
  show V m c main_arg1 (((cfg0.win 2).blk t).view.emb (ix2 r k)) = _
  refine congrArg (V m c main_arg1) (funext fun a => Fin.ext ?_)
  match a with
  | ⟨0, _⟩ => show win0_2.index t (0 : Fin 2) * 200 + 1 * r.val = 400 * t.val + r.val; omega
  | ⟨1, _⟩ => show win0_2.index t (1 : Fin 2) * 10000 + 1 * k.val = k.val; omega

/-- The second adjacency window holds rows 400 t + 200 .. 400 t + 399. -/
theorem iblk3_apply (c : Dev nD) (t : Fin cfg0.N) (r : Fin 200) (k : Fin 10000) (h : 400 * t.val + (200 + r.val) < 10000) :
    (iblk m c 3 t : Vec Ideal S200x10000 .f32) (ix2 r k) = V m c main_arg1 (ix2 (⟨400 * t.val + (200 + r.val), h⟩ : Fin 10000) k) := by
  obtain ⟨-, -, -, -, -, -, e30, e31, -⟩ := idx_facts t
  show V m c main_arg1 (((cfg0.win 3).blk t).view.emb (ix2 r k)) = _
  refine congrArg (V m c main_arg1) (funext fun a => Fin.ext ?_)
  match a with
  | ⟨0, _⟩ => show win0_3.index t (0 : Fin 2) * 200 + 1 * r.val = 400 * t.val + (200 + r.val); omega
  | ⟨1, _⟩ => show win0_3.index t (1 : Fin 2) * 10000 + 1 * k.val = k.val; omega

/-! ## The scratch at an entry -/

/-- A chunk of 1000 feature rows from row `off` on, times the concatenated weights, is the product at the rows the
    chunk's store covers. -/
theorem chunk_at (off : ℕ) (inbx : ∀ a, (![off, 0] : Fin 2 → ℕ) a + S1000x128.size a ≤ S10000x128.size a)
    (inbs : ∀ a, (![off, 0] : Fin 2 → ℕ) a + S1000x256.size a ≤ S10000x256.size a)
    (x0 : Vec Ideal S10000x128 .f32) (x1 : Vec Ideal S128x256 .f32) (x : S1000x256.Idx) :
    k0_pay3 (F := Ideal) (View.ld x0 (Rect.unit (s := S10000x128) ![off, 0] S1000x128.size inbx)) x1 x
      = ∑ j : Fin 128, x0 (ix2 (⟨((Rect.unit (s := S10000x256) ![off, 0] S1000x256.size inbs).emb x 0).val, ((Rect.unit (s := S10000x256) ![off, 0] S1000x256.size inbs).emb x 0).isLt⟩ : Fin 10000) j)
          * x1 (ix2 j (⟨((Rect.unit (s := S10000x256) ![off, 0] S1000x256.size inbs).emb x 1).val, ((Rect.unit (s := S10000x256) ![off, 0] S1000x256.size inbs).emb x 1).isLt⟩ : Fin 256)) := by
  obtain ⟨r, q, rfl⟩ : ∃ (r : Fin 1000) (q : Fin 256), x = ix2 r q := ⟨x 0, x 1, eq_ix2 x⟩
  rw [chunk_apply]
  refine Finset.sum_congr rfl fun j _ => ?_
  refine congrArg₂ (· * ·) (congrArg x0 (funext fun a => Fin.ext ?_)) (congrArg x1 (funext fun a => Fin.ext ?_))
  · match a with
    | ⟨0, _⟩ => rfl
    | ⟨1, _⟩ => show 0 + 1 * j.val = j.val; omega
  · match a with
    | ⟨0, _⟩ => rfl
    | ⟨1, _⟩ => show q.val = 0 + 1 * q.val; omega

/-- The filled scratch at (k, q): row k of the features times column q of the concatenated weights. -/
theorem sup_apply (x0 : Vec Ideal S10000x128 .f32) (x1 : Vec Ideal S128x256 .f32) (k : Fin 10000) (q : Fin 256) :
    supOf x0 x1 (ix2 k q) = ∑ j : Fin 128, x0 (ix2 k j) * x1 (ix2 j q) := by
  unfold supOf
  refine (View.canon_apply_of_pieces (fun y : S10000x256.Idx => ∑ j : Fin 128,
      x0 (ix2 (⟨(y 0).val, (y 0).isLt⟩ : Fin 10000) j) * x1 (ix2 j (⟨(y 1).val, (y 1).isLt⟩ : Fin 256)))
    (supPieces x0 x1) ?_ (ix2 k q) (View.cover_of_tiledL (supPieces x0 x1) S1000x256.size (by sl_kernel_rfl) _)).trans rfl
  intro p hp x
  simp only [supPieces, List.mem_cons, List.mem_nil_iff, or_false] at hp
  rcases hp with rfl | rfl | rfl | rfl | rfl | rfl | rfl | rfl | rfl | rfl
  · exact chunk_at 9000 Facts₀.inb_S10000x128_S1000x128_9000_0 Facts₀.inb_S10000x256_S1000x256_9000_0 x0 x1 x
  · exact chunk_at 8000 Facts₀.inb_S10000x128_S1000x128_8000_0 Facts₀.inb_S10000x256_S1000x256_8000_0 x0 x1 x
  · exact chunk_at 7000 Facts₀.inb_S10000x128_S1000x128_7000_0 Facts₀.inb_S10000x256_S1000x256_7000_0 x0 x1 x
  · exact chunk_at 6000 Facts₀.inb_S10000x128_S1000x128_6000_0 Facts₀.inb_S10000x256_S1000x256_6000_0 x0 x1 x
  · exact chunk_at 5000 Facts₀.inb_S10000x128_S1000x128_5000_0 Facts₀.inb_S10000x256_S1000x256_5000_0 x0 x1 x
  · exact chunk_at 4000 Facts₀.inb_S10000x128_S1000x128_4000_0 Facts₀.inb_S10000x256_S1000x256_4000_0 x0 x1 x
  · exact chunk_at 3000 Facts₀.inb_S10000x128_S1000x128_3000_0 Facts₀.inb_S10000x256_S1000x256_3000_0 x0 x1 x
  · exact chunk_at 2000 Facts₀.inb_S10000x128_S1000x128_2000_0 Facts₀.inb_S10000x256_S1000x256_2000_0 x0 x1 x
  · exact chunk_at 1000 Facts₀.inb_S10000x128_S1000x128_1000_0 Facts₀.inb_S10000x256_S1000x256_1000_0 x0 x1 x
  · exact chunk_at 0 Facts₀.inb_S10000x128_S1000x128_0_0 Facts₀.inb_S10000x256_S1000x256_0_0 x0 x1 x

/-! ## One output block -/

/-- One block of the first output from its two adjacency windows: row r' of the block is row r' of the 400 adjacency rows
    `R` times the scratch's left columns, normalised. -/
theorem block4_apply (a2 a3 : Vec Ideal S200x10000 .f32) (S : Vec Ideal S10000x256 .f32) (R : Fin 400 → Fin 10000 → EReal)
    (h2 : ∀ (r : Fin 200) (k : Fin 10000), a2 (ix2 r k) = R ⟨r.val, by omega⟩ k)
    (h3 : ∀ (r : Fin 200) (k : Fin 10000), a3 (ix2 r k) = R ⟨200 + r.val, by omega⟩ k)
    (r' : Fin 400) (q : Fin 128) :
    View.canon (outPieces4 a2 a3 S) (ix2 r' q)
      = Cert.Spec.unitRow (fun c => ∑ k : Fin 10000, R r' k * S (ix2 k (colL c))) q := by
  refine (View.canon_apply_of_pieces (fun y : S400x128.Idx => Cert.Spec.unitRow
      (fun c => ∑ k : Fin 10000, R ⟨(y 0).val, (y 0).isLt⟩ k * S (ix2 k (colL c))) ⟨(y 1).val, (y 1).isLt⟩)
    (outPieces4 a2 a3 S) ?_ (ix2 r' q) (View.cover_of_tiledL (outPieces4 a2 a3 S) S200x128.size (by sl_kernel_rfl) _)).trans rfl
  intro p hp x
  simp only [outPieces4, List.mem_cons, List.mem_nil_iff, or_false] at hp
  rcases hp with rfl | rfl
  · obtain ⟨r, q, rfl⟩ : ∃ (r : Fin 200) (q : Fin 128), x = ix2 r q := ⟨x 0, x 1, eq_ix2 x⟩
    show k0_pay1 (F := Ideal) (k0_pay17 a3 S) (k0_pay19 a3 S) (ix2 r q) = _
    rw [out1_second, out1_apply]
    simp only [h3]
    exact congrArg₂ (fun (a : Fin 400) (b : Fin 128) => Cert.Spec.unitRow (fun c => ∑ k : Fin 10000, R a k * S (ix2 k (colL c))) b)
      (Fin.ext (by show 200 + r.val = 200 + 1 * r.val; omega)) (Fin.ext (by show q.val = 0 + 1 * q.val; omega))
  · obtain ⟨r, q, rfl⟩ : ∃ (r : Fin 200) (q : Fin 128), x = ix2 r q := ⟨x 0, x 1, eq_ix2 x⟩
    show k0_pay14 (F := Ideal) a2 S (ix2 r q) = _
    rw [out1_apply]
    simp only [h2]
    exact congrArg₂ (fun (a : Fin 400) (b : Fin 128) => Cert.Spec.unitRow (fun c => ∑ k : Fin 10000, R a k * S (ix2 k (colL c))) b)
      (Fin.ext (by show r.val = 0 + 1 * r.val; omega)) (Fin.ext (by show q.val = 0 + 1 * q.val; omega))

/-- One block of the second output from its two adjacency windows: row r' of the block is row r' of the 400 adjacency rows
    `R` times the scratch's right columns, normalised. -/
theorem block5_apply (a2 a3 : Vec Ideal S200x10000 .f32) (S : Vec Ideal S10000x256 .f32) (R : Fin 400 → Fin 10000 → EReal)
    (h2 : ∀ (r : Fin 200) (k : Fin 10000), a2 (ix2 r k) = R ⟨r.val, by omega⟩ k)
    (h3 : ∀ (r : Fin 200) (k : Fin 10000), a3 (ix2 r k) = R ⟨200 + r.val, by omega⟩ k)
    (r' : Fin 400) (q : Fin 128) :
    View.canon (outPieces5 a2 a3 S) (ix2 r' q)
      = Cert.Spec.unitRow (fun c => ∑ k : Fin 10000, R r' k * S (ix2 k (colR c))) q := by
  refine (View.canon_apply_of_pieces (fun y : S400x128.Idx => Cert.Spec.unitRow
      (fun c => ∑ k : Fin 10000, R ⟨(y 0).val, (y 0).isLt⟩ k * S (ix2 k (colR c))) ⟨(y 1).val, (y 1).isLt⟩)
    (outPieces5 a2 a3 S) ?_ (ix2 r' q) (View.cover_of_tiledL (outPieces5 a2 a3 S) S200x128.size (by sl_kernel_rfl) _)).trans rfl
  intro p hp x
  simp only [outPieces5, List.mem_cons, List.mem_nil_iff, or_false] at hp
  rcases hp with rfl | rfl
  · obtain ⟨r, q, rfl⟩ : ∃ (r : Fin 200) (q : Fin 128), x = ix2 r q := ⟨x 0, x 1, eq_ix2 x⟩
    show k0_pay2 (F := Ideal) (k0_pay18 a3 S) (ix2 r q) = _
    rw [out2_second, out2_apply]
    simp only [h3]
    exact congrArg₂ (fun (a : Fin 400) (b : Fin 128) => Cert.Spec.unitRow (fun c => ∑ k : Fin 10000, R a k * S (ix2 k (colR c))) b)
      (Fin.ext (by show 200 + r.val = 200 + 1 * r.val; omega)) (Fin.ext (by show q.val = 0 + 1 * q.val; omega))
  · obtain ⟨r, q, rfl⟩ : ∃ (r : Fin 200) (q : Fin 128), x = ix2 r q := ⟨x 0, x 1, eq_ix2 x⟩
    show k0_pay15 (F := Ideal) a2 S (ix2 r q) = _
    rw [out2_apply]
    simp only [h2]
    exact congrArg₂ (fun (a : Fin 400) (b : Fin 128) => Cert.Spec.unitRow (fun c => ∑ k : Fin 10000, R a k * S (ix2 k (colR c))) b)
      (Fin.ext (by show r.val = 0 + 1 * r.val; omega)) (Fin.ext (by show q.val = 0 + 1 * q.val; omega))

/-! ## What each point writes back -/

/-- What point t writes back into the first output is block t of the layer of the arrays as the call finds them. -/
theorem flushed4_eq (c : Dev nD) (t : Fin cfg0.N) :
    (dats m 0 c).flushed 4 t = ((cfg0.win 4).blk t).view.read (Elt Ideal)
      (Cert.Spec.layer (V m c main_arg1) (V m c main_arg0) (fun j q => V m c main_v0 (ix2 j (colL q)))) := by
  show (cfg0.win 4).cut (grid0.coords t) ((dats m 0 c).after 4 t) = _
  rw [after0_4, outsAt_fst]
  obtain ⟨e00, e01, e10, e11, e20, e21, e30, e31, e40, e41, e50, e51⟩ := idx_facts t
  have hN : t.val < 25 := lt_of_lt_of_eq t.isLt (show cfg0.N = 25 from N_0)
  funext y
  obtain ⟨r', q, rfl⟩ : ∃ (r' : Fin 400) (q : Fin 128), y = ix2 r' q := ⟨y 0, y 1, eq_ix2 y⟩
  show View.canon (outPieces4 (iblk m c 2 t) (iblk m c 3 t) (supOf (iblk m c 0 pt0) (iblk m c 1 pt0))) (ix2 r' q)
    = Cert.Spec.layer (V m c main_arg1) (V m c main_arg0) (fun j q => V m c main_v0 (ix2 j (colL q))) (((cfg0.win 4).blk t).view.emb (ix2 r' q))
  have he : ((cfg0.win 4).blk t).view.emb (ix2 r' q) = ix2 (⟨400 * t.val + r'.val, by omega⟩ : Fin 10000) q := funext fun a => Fin.ext (by
    match a with
    | ⟨0, _⟩ => show win0_4.index t (0 : Fin 2) * 400 + 1 * r'.val = 400 * t.val + r'.val; omega
    | ⟨1, _⟩ => show win0_4.index t (1 : Fin 2) * 128 + 1 * q.val = q.val; omega)
  rw [he, Cert.Spec.layer_ix2,
    block4_apply (iblk m c 2 t) (iblk m c 3 t) _ (fun r k => V m c main_arg1 (ix2 (⟨400 * t.val + r.val, by omega⟩ : Fin 10000) k))
      (fun r k => iblk2_apply m c t r k (by omega)) (fun r k => iblk3_apply m c t r k (by omega)) r' q]
  unfold Cert.Spec.aggregate Cert.Spec.support
  simp only [sup_apply, iblk0_apply, iblk1_apply]

/-- What point t writes back into the second output is block t of the layer of the arrays as the call finds them. -/
theorem flushed5_eq (c : Dev nD) (t : Fin cfg0.N) :
    (dats m 0 c).flushed 5 t = ((cfg0.win 5).blk t).view.read (Elt Ideal)
      (Cert.Spec.layer (V m c main_arg1) (V m c main_arg0) (fun j q => V m c main_v0 (ix2 j (colR q)))) := by
  show (cfg0.win 5).cut (grid0.coords t) ((dats m 0 c).after 5 t) = _
  rw [after0_5, outsAt_snd]
  obtain ⟨e00, e01, e10, e11, e20, e21, e30, e31, e40, e41, e50, e51⟩ := idx_facts t
  have hN : t.val < 25 := lt_of_lt_of_eq t.isLt (show cfg0.N = 25 from N_0)
  funext y
  obtain ⟨r', q, rfl⟩ : ∃ (r' : Fin 400) (q : Fin 128), y = ix2 r' q := ⟨y 0, y 1, eq_ix2 y⟩
  show View.canon (outPieces5 (iblk m c 2 t) (iblk m c 3 t) (supOf (iblk m c 0 pt0) (iblk m c 1 pt0))) (ix2 r' q)
    = Cert.Spec.layer (V m c main_arg1) (V m c main_arg0) (fun j q => V m c main_v0 (ix2 j (colR q))) (((cfg0.win 5).blk t).view.emb (ix2 r' q))
  have he : ((cfg0.win 5).blk t).view.emb (ix2 r' q) = ix2 (⟨400 * t.val + r'.val, by omega⟩ : Fin 10000) q := funext fun a => Fin.ext (by
    match a with
    | ⟨0, _⟩ => show win0_5.index t (0 : Fin 2) * 400 + 1 * r'.val = 400 * t.val + r'.val; omega
    | ⟨1, _⟩ => show win0_5.index t (1 : Fin 2) * 128 + 1 * q.val = q.val; omega)
  rw [he, Cert.Spec.layer_ix2,
    block5_apply (iblk m c 2 t) (iblk m c 3 t) _ (fun r k => V m c main_arg1 (ix2 (⟨400 * t.val + r.val, by omega⟩ : Fin 10000) k))
      (fun r k => iblk2_apply m c t r k (by omega)) (fun r k => iblk3_apply m c t r k (by omega)) r' q]
  unfold Cert.Spec.aggregate Cert.Spec.support
  simp only [sup_apply, iblk0_apply, iblk1_apply]

/-! ## The outputs after the run -/

theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1_0).slice (win0_4.rect t)).set ↔ _
  rw [View.set_slice_whole, Rect.mem_set_unit]
  exact Iff.rfl

/-- Every row of the output is in the block of the point `row / 400`. -/
theorem cover4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have ht : (i 0).val / 400 < cfg0.N := by rw [show cfg0.N = 25 from N_0]; omega
  obtain ⟨e00, e01, e10, e11, e20, e21, e30, e31, e40, e41, e50, e51⟩ := idx_facts ⟨(i 0).val / 400, ht⟩
  refine ⟨⟨(i 0).val / 400, ht⟩, flush0_4 _, ?_⟩
  rw [mem_blk4]
  intro a
  match a with
  | ⟨0, _⟩ =>
    show win0_4.index ⟨(i 0).val / 400, ht⟩ (0 : Fin 2) * 400 ≤ (i 0).val ∧ (i 0).val < win0_4.index ⟨(i 0).val / 400, ht⟩ (0 : Fin 2) * 400 + 400
    rw [e40]; show (i 0).val / 400 * 400 ≤ (i 0).val ∧ (i 0).val < (i 0).val / 400 * 400 + 400; omega
  | ⟨1, _⟩ =>
    show win0_4.index ⟨(i 0).val / 400, ht⟩ (1 : Fin 2) * 128 ≤ (i 1).val ∧ (i 1).val < win0_4.index ⟨(i 0).val / 400, ht⟩ (1 : Fin 2) * 128 + 128
    rw [e41]; omega

/-- The first output after the run. -/
theorem final4 (c : Dev nD) : (dats m 0 c).arrAt 4 cfg0.N
    = Cert.Spec.layer (V m c main_arg1) (V m c main_arg0) (fun j q => V m c main_v0 (ix2 j (colL q))) :=
  (dats m 0 c).arrAt_eq_of_cover 4 _ (fun t _ => flushed4_eq m c t) cover4

theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v1_1).slice (win0_5.rect t)).set ↔ _
  rw [View.set_slice_whole, Rect.mem_set_unit]
  exact Iff.rfl

/-- Every row of the output is in the block of the point `row / 400`. -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have ht : (i 0).val / 400 < cfg0.N := by rw [show cfg0.N = 25 from N_0]; omega
  obtain ⟨e00, e01, e10, e11, e20, e21, e30, e31, e40, e41, e50, e51⟩ := idx_facts ⟨(i 0).val / 400, ht⟩
  refine ⟨⟨(i 0).val / 400, ht⟩, flush0_5 _, ?_⟩
  rw [mem_blk5]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e50]; show (i 0).val / 400 * 400 ≤ (i 0).val ∧ (i 0).val < (i 0).val / 400 * 400 + 400; omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    rw [e51]; omega

/-- The second output after the run. -/
theorem final5 (c : Dev nD) : (dats m 0 c).arrAt 5 cfg0.N
    = Cert.Spec.layer (V m c main_arg1) (V m c main_arg0) (fun j q => V m c main_v0 (ix2 j (colR q))) :=
  (dats m 0 c).arrAt_eq_of_cover 5 _ (fun t _ => flushed5_eq m c t) cover5

/-! ## The concatenated weights -/

/-- The call's second operand is the two weight matrices side by side. -/
theorem wcat_eq (c : Dev nD) : (V m c main_v0 : S128x256.Idx → EReal)
    = concatenate S128x256 1 [⟨S128x128, m ((c : Thread nD τ).loc main_arg2)⟩, ⟨S128x128, m ((c : Thread nD τ).loc main_arg3)⟩]
        Facts₀.concatenates_S128x128_S128x128_S128x256_d1 := by
  dsimp only [V, hostOps0]; after_results

/-- Its left half is the first weight matrix, -/
theorem wcat_left (c : Dev nD) (j q : Fin 128) :
    V m c main_v0 (ix2 j (colL q)) = m ((c : Thread nD τ).loc main_arg2) (ix2 j q) := by
  show (V m c main_v0 : S128x256.Idx → EReal) (ix2 j (colL q)) = _
  rw [wcat_eq]
  exact concatenate_pair_apply_left (s₁ := S128x128) (s₂ := S128x128) (1 : Fin 2) _ _ _ (ix2 j (colL q)) rfl (ix2 j q) (fun b => by
    match b with | ⟨0, _⟩ => rfl | ⟨1, _⟩ => rfl)

/-- and its right half the second. -/
theorem wcat_right (c : Dev nD) (j q : Fin 128) :
    V m c main_v0 (ix2 j (colR q)) = m ((c : Thread nD τ).loc main_arg3) (ix2 j q) := by
  show (V m c main_v0 : S128x256.Idx → EReal) (ix2 j (colR q)) = _
  rw [wcat_eq]
  exact concatenate_pair_apply_right (s₁ := S128x128) (s₂ := S128x128) (1 : Fin 2) _ _ _ (ix2 j (colR q)) rfl rfl (ix2 j q) (fun b hb => by
    match b with
    | ⟨0, _⟩ => rfl
    | ⟨1, _⟩ => exact absurd rfl hb) rfl

/-! ## The run, with its values -/

/-- Every fair execution of the idealized kernel terminates with each output at the layer of the adjacency matrix,
    the features and one weight matrix as launched, and the four arguments unchanged. -/
theorem run_values : θ_run defs (onTc (τ := τ) (main (F := Ideal))) ⟨m, fun _ => 0, ρ⟩ fun r => ∀ c : Dev nD,
      r.2.mem ((c.tc : Thread nD τ).loc main_v1_0) = Cert.Spec.layer (m ((c.tc : Thread nD τ).loc main_arg1)) (m ((c.tc : Thread nD τ).loc main_arg0)) (fun j q => m ((c.tc : Thread nD τ).loc main_arg2) (ix2 j q))
      ∧ r.2.mem ((c.tc : Thread nD τ).loc main_v1_1) = Cert.Spec.layer (m ((c.tc : Thread nD τ).loc main_arg1)) (m ((c.tc : Thread nD τ).loc main_arg0)) (fun j q => m ((c.tc : Thread nD τ).loc main_arg3) (ix2 j q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans ((final4 m c).trans (by
        rw [V_main_arg0, V_main_arg1]; exact congrArg _ (funext fun j => funext fun q => wcat_left m c j q))),
      ((h c).1 5).trans ((final5 m c).trans (by
        rw [V_main_arg0, V_main_arg1]; exact congrArg _ (funext fun j => funext fun q => wcat_right m c j q))),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Whole

end
-- ==== Proof.ReferenceLayer.lean ====
/-
  The reference, read entry by entry: each of its two results is the layer of the adjacency matrix, the features and
  one weight matrix. The host's two matrix products are the plain sums, its row sum starts from the zero word (which
  adds nothing), and the norm is kept as a column and repeated along the row before the division.
-/
import proofs.«181799_g85478439125828_cont_9to1_m_54_13_alg».proof.Proof.Gen.ReferenceIdeal.Read
import proofs.«181799_g85478439125828_cont_9to1_m_54_13_alg».proof.Proof.LayerSpec

set_option maxRecDepth 16384

noncomputable section

namespace Cert.ReferenceIdeal.Layer

open Cert.ReferenceIdeal Cert.ReferenceIdeal.Gen Cert.ReferenceIdeal.Read
open Idealize.ShloMosaic Idealize.ShloMosaic.ValueIdx
open scoped BigOperators

/-- The reference's first result is the layer of the adjacency matrix, the features and its weight matrix. -/
theorem v11_is_layer (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v11 (F := Ideal) x0 x1 x2 = Cert.Spec.layer x1 x0 (fun j q => x2 (ix2 j q)) := by
  funext i
  obtain ⟨p, q, rfl⟩ : ∃ (p : Fin 10000) (q : Fin 128), i = ix2 p q := ⟨i 0, i 1, eq_ix2 i⟩
  have hprod : ∀ c : Fin 128, val_main_v1 (F := Ideal) x0 x1 x2 (ix2 p c)
      = Cert.Spec.aggregate x1 (Cert.Spec.support x0 fun j q => x2 (ix2 j q)) p c := fun c => by
    rw [val_main_v1_apply]
    unfold Cert.Spec.aggregate
    refine Finset.sum_congr rfl fun k _ => ?_
    have el : lidx_main_v1 (ix2 p c) k = ix2 p k := funext fun a => by
      match a with | ⟨0, _⟩ => rfl | ⟨1, _⟩ => rfl
    have er : ridx_main_v1 (ix2 p c) k = ix2 k c := funext fun a => by
      match a with | ⟨0, _⟩ => rfl | ⟨1, _⟩ => rfl
    rw [el, er, val_main_v0_apply]
    unfold Cert.Spec.support
    refine congrArg (fun z => x1 (ix2 p k) * z) (Finset.sum_congr rfl fun j _ => ?_)
    have el0 : lidx_main_v0 (ix2 k c) j = ix2 k j := funext fun a => by
      match a with | ⟨0, _⟩ => rfl | ⟨1, _⟩ => rfl
    have er0 : ridx_main_v0 (ix2 k c) j = ix2 j c := funext fun a => by
      match a with | ⟨0, _⟩ => rfl | ⟨1, _⟩ => rfl
    rw [el0, er0]
  have erow : ∀ k : Fin 128, idx_main_v5 (idx_main_v6 (idx_main_v10 (ix2 p q))) k = ix2 p k := fun k => funext fun a => by
    match a with | ⟨0, _⟩ => rfl | ⟨1, _⟩ => rfl
  rw [Cert.Spec.layer_ix2, val_main_v11_apply, val_main_v10_apply, val_main_v9_apply, val_main_v7_apply, val_main_v6_apply,
    val_main_v5_apply, val_main_v8_apply, val_main_cst_0_apply, val_main_cst_apply]
  simp only [val_main_v4_apply, erow, hprod]
  unfold Cert.Spec.unitRow Cert.Spec.floorValue
  simp only [Ideal.hostDivf_def, Ideal.mulf_def, Ideal.maximumf_def, Ideal.hostUnary_sqrt_def, Ideal.ofBits_def,
    Ideal.ofBits_zero_f32, zero_add]

/-- The reference's second result is the layer of the adjacency matrix, the features and its weight matrix. -/
theorem v19_is_layer (x0 : (⟨S10000x128, .f32⟩ : BufTy).Contents (Elt Ideal)) (x1 : (⟨S10000x10000, .f32⟩ : BufTy).Contents (Elt Ideal))
    (x3 : (⟨S128x128, .f32⟩ : BufTy).Contents (Elt Ideal)) :
    val_main_v19 (F := Ideal) x0 x1 x3 = Cert.Spec.layer x1 x0 (fun j q => x3 (ix2 j q)) := by
  funext i
  obtain ⟨p, q, rfl⟩ : ∃ (p : Fin 10000) (q : Fin 128), i = ix2 p q := ⟨i 0, i 1, eq_ix2 i⟩
  have hprod : ∀ c : Fin 128, val_main_v3 (F := Ideal) x0 x1 x3 (ix2 p c)
      = Cert.Spec.aggregate x1 (Cert.Spec.support x0 fun j q => x3 (ix2 j q)) p c := fun c => by
    rw [val_main_v3_apply]
    unfold Cert.Spec.aggregate
    refine Finset.sum_congr rfl fun k _ => ?_
    have el : lidx_main_v3 (ix2 p c) k = ix2 p k := funext fun a => by
      match a with | ⟨0, _⟩ => rfl | ⟨1, _⟩ => rfl
    have er : ridx_main_v3 (ix2 p c) k = ix2 k c := funext fun a => by
      match a with | ⟨0, _⟩ => rfl | ⟨1, _⟩ => rfl
    rw [el, er, val_main_v2_apply]
    unfold Cert.Spec.support
    refine congrArg (fun z => x1 (ix2 p k) * z) (Finset.sum_congr rfl fun j _ => ?_)
    have el0 : lidx_main_v2 (ix2 k c) j = ix2 k j := funext fun a => by
      match a with | ⟨0, _⟩ => rfl | ⟨1, _⟩ => rfl
    have er0 : ridx_main_v2 (ix2 k c) j = ix2 j c := funext fun a => by
      match a with | ⟨0, _⟩ => rfl | ⟨1, _⟩ => rfl
    rw [el0, er0]
  have erow : ∀ k : Fin 128, idx_main_v13 (idx_main_v14 (idx_main_v18 (ix2 p q))) k = ix2 p k := fun k => funext fun a => by
    match a with | ⟨0, _⟩ => rfl | ⟨1, _⟩ => rfl
  rw [Cert.Spec.layer_ix2, val_main_v19_apply, val_main_v18_apply, val_main_v17_apply, val_main_v15_apply, val_main_v14_apply,
    val_main_v13_apply, val_main_v16_apply, val_main_cst_2_apply, val_main_cst_1_apply]
  simp only [val_main_v12_apply, erow, hprod]
  unfold Cert.Spec.unitRow Cert.Spec.floorValue
  simp only [Ideal.hostDivf_def, Ideal.mulf_def, Ideal.maximumf_def, Ideal.hostUnary_sqrt_def, Ideal.ofBits_def,
    Ideal.ofBits_zero_f32, zero_add]

end Cert.ReferenceIdeal.Layer

end
-- ==== Proof.lean ====
/-
  A graph-convolution layer with row normalisation: out_k = rows of A · (X · W_k), each divided by its Euclidean
  norm floored at the value of the word 0x2B8CBCCC, for the two weight matrices W_1, W_2.

  The kernel computes both at once. It stands the two weight matrices side by side, multiplies the features by them
  once into a scratch array (at the first of 25 grid points, in ten chunks of 1000 rows), and at every grid point
  multiplies 400 rows of the adjacency matrix — handed to it as two windows of 200 rows on the same array — by the
  scratch, splits the 256 columns into two halves of 128 and normalises each half row by row. The reference computes
  A · (X · W_1) and A · (X · W_2) separately and normalises each.

  Over the extended reals the two are the same function entry by entry: a column of X · [W_1 | W_2] is a column of
  X · W_1 or of X · W_2, and every other operation — the sums, the products, the square root, the maximum with the
  floor, the quotient — stands identically on both sides, so no entry needs to be finite. The three frames: the
  kernel's (read at words and at extended reals) from its run point by point, the scratch carried at the product
  from the first point on and the shared adjacency matrix held in two halves; the reference's from its run. Nothing
  was rewritten between the kernel and its idealization.
-/
import proofs.«181799_g85478439125828_cont_9to1_m_54_13_alg».proof.Defs
import proofs.«181799_g85478439125828_cont_9to1_m_54_13_alg».proof.Proof.Gen.Kernel
import proofs.«181799_g85478439125828_cont_9to1_m_54_13_alg».proof.Proof.Gen.KernelIdeal
import proofs.«181799_g85478439125828_cont_9to1_m_54_13_alg».proof.Proof.Gen.ReferenceIdeal
import proofs.«181799_g85478439125828_cont_9to1_m_54_13_alg».proof.Proof.Gen.Pre_finite_inputs
import proofs.«181799_g85478439125828_cont_9to1_m_54_13_alg».proof.Proof.Gen.ReferenceIdeal.Run
import proofs.«181799_g85478439125828_cont_9to1_m_54_13_alg».proof.Proof.Gen.ReferenceIdeal.Read
import proofs.«181799_g85478439125828_cont_9to1_m_54_13_alg».proof.Proof.KernelFrame
import proofs.«181799_g85478439125828_cont_9to1_m_54_13_alg».proof.Proof.KernelIdealWhole
import proofs.«181799_g85478439125828_cont_9to1_m_54_13_alg».proof.Proof.ReferenceLayer
import Idealize.ShloMosaic.Adequacy
import Idealize.ShloMosaic.Init

noncomputable section

namespace Cert.Proof

open Idealize.ShloMosaic Idealize.ShloMosaic.ValueIdx Idealize.SL.Sem

/-- The kernel, read at words, runs and leaves its arguments unchanged. -/
theorem frame_kernel : Cert.frame_Kernel := fun m ρ _ => Cert.Kernel.Frame.frame m ρ

/-- So does the kernel read at extended reals. -/
theorem frame_ideal : Cert.frame_KernelIdeal := fun m ρ _ => Cert.KernelIdeal.Frame.frame m ρ

/-- The reference runs and leaves its arguments unchanged: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten between the kernel and its idealization. -/
theorem preserves : Cert.preserves_Kernel_KernelIdeal := trivial

/-- Both programs end with each output at the layer of the adjacency matrix, the features and one weight matrix. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (fun j q => m ((c.tc : Thread Cert.KernelIdeal.nD Cert.KernelIdeal.τ).loc Cert.KernelIdeal.main_arg2) (ix2 j q)),
    fun c => Cert.Spec.layer (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (fun j q => m ((c.tc : Thread Cert.KernelIdeal.nD Cert.KernelIdeal.τ).loc Cert.KernelIdeal.main_arg3) (ix2 j q)),
    Cert.KernelIdeal.Whole.run_values m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v11_eq, Cert.ReferenceIdeal.Layer.v11_is_layer,
      (hagree c).1, (hagree c).2.1, (hagree c).2.2.1]
  · rw [(h c).2.1, Cert.ReferenceIdeal.Read.val_main_v19_eq, Cert.ReferenceIdeal.Layer.v19_is_layer,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
